-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x2048x14x14 : Shape := ⟨4, ![128, 2048, 14, 14]⟩
abbrev S128x20x1024 : Shape := ⟨3, ![128, 20, 1024]⟩
abbrev S1024x2048 : Shape := ⟨2, ![1024, 2048]⟩
abbrev S1024 : Shape := ⟨1, ![1024]⟩
abbrev S1024x1024 : Shape := ⟨2, ![1024, 1024]⟩
abbrev S_ : Shape := ⟨0, ![]⟩

class Facts : Prop where
  bcast_S_S128x2048x14x14 : S_.BroadcastsInDim S128x2048x14x14 (![] : Fin 0 → Fin S128x2048x14x14.rank)
  reducesTo_S128x2048x14x14_S_d0_1_2_3 : S128x2048x14x14.ReducesTo [0, 1, 2, 3] S_
  h_S_ : 0 < S_.numel
  bcast_S_S128x20x1024 : S_.BroadcastsInDim S128x20x1024 (![] : Fin 0 → Fin S128x20x1024.rank)
  reducesTo_S128x20x1024_S_d0_1_2 : S128x20x1024.ReducesTo [0, 1, 2] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S1024x1024 .f32) (main_arg8 : FVec F S1024x1024 .f32) (main_arg9 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S1024x1024 .f32) (main_arg5 : FVec F S1024x1024 .f32) (main_arg6 : FVec F S1024 .f32) (main_arg7 : FVec F S1024x1024 .f32) (main_arg8 : FVec F S1024x1024 .f32) (main_arg9 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_v33

def fn {F : FTy → Type} [FloatOps F] (main_arg0 : FVec F S128x2048x14x14 .f32) (main_arg1 : FVec F S128x20x1024 .f32) (main_arg2 : FVec F S1024x2048 .f32) (main_arg3 : FVec F S1024 .f32) (main_arg4 : FVec F S1024x1024 .f32) (main_arg5 : FVec F S1024x1024 .f32) (main_arg6 : FVec F S1024 .f32) (main_arg7 : FVec F S1024x1024 .f32) (main_arg8 : FVec F S1024x1024 .f32) (main_arg9 : FVec F S1024 .f32) : IVec S_ 1 :=
  let main_v0 : FVec F S128x2048x14x14 .f32 := Host.absf main_arg0
  let main_cst : FVec F S_ .f32 := constant S_ .f32 0x7F800000#32
  let main_v1 : FVec F S128x2048x14x14 .f32 := broadcastInDim S128x2048x14x14 ![] bcast_S_S128x2048x14x14 main_cst
  let main_v2 : IVec S128x2048x14x14 1 := cmpf .olt main_v0 main_v1
  let main_c : IVec S_ 1 := constantI S_ 1 1#1
  let main_v3 : IVec S_ 1 := (fun x v => Host.reduce IntOp.andi x v reducesTo_S128x2048x14x14_S_d0_1_2_3 h_S_) main_v2 main_c
  let main_v4 : FVec F S128x20x1024 .f32 := Host.absf main_arg1
  let main_cst_0 : FVec F S_ .f32 := constant S_ .f32 0x7F800000#32
  let main_v5 : FVec F S128x20x1024 .f32 := broadcastInDim S128x20x1024 ![] bcast_S_S128x20x1024 main_cst_0
  let main_v6 : IVec S128x20x1024 1 := cmpf .olt main_v4 main_v5
  let main_c_1 : IVec S_ 1 := constantI S_ 1 1#1
  let main_v7 : IVec S_ 1 := (fun x v => Host.reduce IntOp.andi x v reducesTo_S128x20x1024_S_d0_1_2 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_v13 main_v16
-- ==== Kernel.lean ====
abbrev S128x2048x14x14 : Shape := ⟨4, ![128, 2048, 14, 14]⟩
abbrev S128x20x1024 : Shape := ⟨3, ![128, 20, 1024]⟩
abbrev S1024x2048 : Shape := ⟨2, ![1024, 2048]⟩
abbrev S1024 : Shape := ⟨1, ![1024]⟩
abbrev S1024x1024 : Shape := ⟨2, ![1024, 1024]⟩
abbrev S128x2048x196 : Shape := ⟨3, ![128, 2048, 196]⟩
abbrev S128x1024x196 : Shape := ⟨3, ![128, 1024, 196]⟩
abbrev S4x2048x196 : Shape := ⟨3, ![4, 2048, 196]⟩
abbrev S4x1024x196 : Shape := ⟨3, ![4, 1024, 196]⟩
abbrev S1x2048x196 : Shape := ⟨3, ![1, 2048, 196]⟩
abbrev S2048x196 : Shape := ⟨2, ![2048, 196]⟩
abbrev S1024x196 : Shape := ⟨2, ![1024, 196]⟩
abbrev S1024x1 : Shape := ⟨2, ![1024, 1]⟩
abbrev S1x1024x196 : Shape := ⟨3, ![1, 1024, 196]⟩
abbrev S_ : Shape := ⟨0, ![]⟩
abbrev S128x1024 : Shape := ⟨2, ![128, 1024]⟩
abbrev S16x1024x196 : Shape := ⟨3, ![16, 1024, 196]⟩
abbrev S16x1024 : Shape := ⟨2, ![16, 1024]⟩
abbrev S1x1024 : Shape := ⟨2, ![1, 1024]⟩

abbrev nBuf : Space → Nat
  | .hbm => 23
  | .vmem => 18
  | .smem => 0
  | _ => 0

abbrev bufTy : (tb : Table) → Fin (tcTables nBuf tb) → BufTy
  | .hbm, ⟨0, _⟩ => ⟨S128x2048x14x14, .f32⟩
  | .hbm, ⟨1, _⟩ => ⟨S128x20x1024, .f32⟩
  | .hbm, ⟨2, _⟩ => ⟨S1024x2048, .f32⟩
  | .hbm, ⟨3, _⟩ => ⟨S1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S128x2048x196, .f32⟩
  | .hbm, ⟨11, _⟩ => ⟨S1024x2048, .bf16⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S128x1024x196, .bf16⟩
  | .hbm, ⟨17, _⟩ => ⟨S_, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S128x1024, .f32⟩
  | .local _ .vmem, ⟨0, _⟩ => ⟨S4x2048x196, .f32⟩
  | .local _ .vmem, ⟨1, _⟩ => ⟨S4x2048x196, .f32⟩
  | .local _ .vmem, ⟨2, _⟩ => ⟨S1024x2048, .bf16⟩
  | .local _ .vmem, ⟨3, _⟩ => ⟨S1024, .f32⟩
  | .local _ .vmem, ⟨4, _⟩ => ⟨S4x1024x196, .bf16⟩
  | .local _ .vmem, ⟨5, _⟩ => ⟨S4x1024x196, .bf16⟩
  | .local _ .vmem, ⟨6, _⟩ => ⟨S16x1024x196, .bf16⟩
  | .local _ .vmem, ⟨7, _⟩ => ⟨S16x1024x196, .bf16⟩
  | .local _ .vmem, ⟨8, _⟩ => ⟨S16x1024, .f32⟩
  | .local _ .vmem, ⟨9, _⟩ => ⟨S16x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024, .f32⟩
  | .local _ .vmem, ⟨13, _⟩ => ⟨S1024x1024, .bf16⟩
  | .local _ .vmem, ⟨14, _⟩ => ⟨S1024x1024, .bf16⟩
  | .local _ .vmem, ⟨15, _⟩ => ⟨S1024, .f32⟩
  | .local _ .vmem, ⟨16, _⟩ => ⟨S16x1024, .f32⟩
  | .local _ .vmem, ⟨17, _⟩ => ⟨S16x1024, .f32⟩
  | _, _ => ⟨S128x2048x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x2048x196 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x1024x196 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16x1024x196 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S16x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  shapeCasts_S128x2048x14x14_S128x2048x196 : S128x2048x14x14.ShapeCasts S128x2048x196
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024_S1024_0 : ∀ a, (![0] : Fin 1 → Nat) a + S1024.size a ≤ S1024.size a
  h_S1024 : 0 < S1024.numel
  inb_S4x2048x196_S1x2048x196_0_0_0 : ∀ a, (![0, 0, 0] : Fin 3 → Nat) a + S1x2048x196.size a ≤ S4x2048x196.size a
  h_S1x2048x196 : 0 < S1x2048x196.numel
  shapeCasts_S1x2048x196_S2048x196 : S1x2048x196.ShapeCasts S2048x196
  shapeCasts_S1024_S1024x1 : S1024.ShapeCasts S1024x1
  broadcasts_S1024x1_S1024x196 : S1024x1.Broadcasts S1024x196
  inb_S4x1024x196_S1x1024x196_0_0_0 : ∀ a, (![0, 0, 0] : Fin 3 → Nat) a + S1x1024x196.size a ≤ S4x1024x196.size a
  h_S1x1024x196 : 0 < S1x1024x196.numel
  shapeCasts_S1x1024x196_S1024x196 : S1x1024x196.ShapeCasts S1024x196
  shapeCasts_S1024x196_S1x1024x196 : S1024x196.ShapeCasts S1x1024x196
  packedbf16_S4x1024x196_S1x1024x196_0_0_0 : (Rect.unit (s := S4x1024x196) ![0, 0, 0] S1x1024x196.size inb_S4x1024x196_S1x1024x196_0_0_0).PackedRows (EltTy.packing .bf16)
  inb_S4x2048x196_S1x2048x196_1_0_0 : ∀ a, (![1, 0, 0] : Fin 3 → Nat) a + S1x2048x196.size a ≤ S4x2048x196.size a
  inb_S4x1024x196_S1x1024x196_1_0_0 : ∀ a, (![1, 0, 0] : Fin 3 → Nat) a + S1x1024x196.size a ≤ S4x1024x196.size a
  packedbf16_S4x1024x196_S1x1024x196_1_0_0 : (Rect.unit (s := S4x1024x196) ![1, 0, 0] S1x1024x196.size inb_S4x1024x196_S1x1024x196_1_0_0).PackedRows (EltTy.packing .bf16)
  inb_S4x2048x196_S1x2048x196_2_0_0 : ∀ a, (![2, 0, 0] : Fin 3 → Nat) a + S1x2048x196.size a ≤ S4x2048x196.size a
  inb_S4x1024x196_S1x1024x196_2_0_0 : ∀ a, (![2, 0, 0] : Fin 3 → Nat) a + S1x1024x196.size a ≤ S4x1024x196.size a
  packedbf16_S4x1024x196_S1x1024x196_2_0_0 : (Rect.unit (s := S4x1024x196) ![2, 0, 0] S1x1024x196.size inb_S4x1024x196_S1x1024x196_2_0_0).PackedRows (EltTy.packing .bf16)
  inb_S4x2048x196_S1x2048x196_3_0_0 : ∀ a, (![3, 0, 0] : Fin 3 → Nat) a + S1x2048x196.size a ≤ S4x2048x196.size a
  inb_S4x1024x196_S1x1024x196_3_0_0 : ∀ a, (![3, 0, 0] : Fin 3 → Nat) a + S1x1024x196.size a ≤ S4x1024x196.size a
  packedbf16_S4x1024x196_S1x1024x196_3_0_0 : (Rect.unit (s := S4x1024x196) ![3, 0, 0] S1x1024x196.size inb_S4x1024x196_S1x1024x196_3_0_0).PackedRows (EltTy.packing .bf16)
  reducesTo_S128x20x1024_S128x1024_d1 : S128x20x1024.ReducesTo [1] S128x1024
  h_S_ : 0 < S_.numel
  bcast_S_S128x1024 : S_.BroadcastsInDim S128x1024 (![] : Fin 0 → Fin S128x1024.rank)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S16x1024_S1x1024_0_0 : ∀ a, (![0, 0] : Fin 2 → Nat) a + S1x1024.size a ≤ S16x1024.size a
  h_S1x1024 : 0 < S1x1024.numel
  shapeCasts_S1x1024_S1024 : S1x1024.ShapeCasts S1024
  inb_S16x1024x196_S1x1024x196_0_0_0 : ∀ a, (![0, 0, 0] : Fin 3 → Nat) a + S1x1024x196.size a ≤ S16x1024x196.size a
  reduces_S1024x196_S1024 : S1024x196.Reduces [1] S1024
  shapeCasts_S1024_S1x1024 : S1024.ShapeCasts S1x1024
  inb_S16x1024_S1x1024_1_0 : ∀ a, (![1, 0] : Fin 2 → Nat) a + S1x1024.size a ≤ S16x1024.size a
  inb_S16x1024x196_S1x1024x196_1_0_0 : ∀ a, (![1, 0, 0] : Fin 3 → Nat) a + S1x1024x196.size a ≤ S16x1024x196.size a
  inb_S16x1024_S1x1024_2_0 : ∀ a, (![2, 0] : Fin 2 → Nat) a + S1x1024.size a ≤ S16x1024.size a
  inb_S16x1024x196_S1x1024x196_2_0_0 : ∀ a, (![2, 0, 0] : Fin 3 → Nat) a + S1x1024x196.size a ≤ S16x1024x196.size a
  inb_S16x1024_S1x1024_3_0 : ∀ a, (![3, 0] : Fin 2 → Nat) a + S1x1024.size a ≤ S16x1024.size a
  inb_S16x1024x196_S1x1024x196_3_0_0 : ∀ a, (![3, 0, 0] : Fin 3 → Nat) a + S1x1024x196.size a ≤ S16x1024x196.size a
  inb_S16x1024_S1x1024_4_0 : ∀ a, (![4, 0] : Fin 2 → Nat) a + S1x1024.size a ≤ S16x1024.size a
  inb_S16x1024x196_S1x1024x196_4_0_0 : ∀ a, (![4, 0, 0] : Fin 3 → Nat) a + S1x1024x196.size a ≤ S16x1024x196.size a
  inb_S16x1024_S1x1024_5_0 : ∀ a, (![5, 0] : Fin 2 → Nat) a + S1x1024.size a ≤ S16x1024.size a
  inb_S16x1024x196_S1x1024x196_5_0_0 : ∀ a, (![5, 0, 0] : Fin 3 → Nat) a + S1x1024x196.size a ≤ S16x1024x196.size a
  inb_S16x1024_S1x1024_6_0 : ∀ a, (![6, 0] : Fin 2 → Nat) a + S1x1024.size a ≤ S16x1024.size a
  inb_S16x1024x196_S1x1024x196_6_0_0 : ∀ a, (![6, 0, 0] : Fin 3 → Nat) a + S1x1024x196.size a ≤ S16x1024x196.size a
  inb_S16x1024_S1x1024_7_0 : ∀ a, (![7, 0] : Fin 2 → Nat) a + S1x1024.size a ≤ S16x1024.size a
  inb_S16x1024x196_S1x1024x196_7_0_0 : ∀ a, (![7, 0, 0] : Fin 3 → Nat) a + S1x1024x196.size a ≤ S16x1024x196.size a
  inb_S16x1024_S1x1024_8_0 : ∀ a, (![8, 0] : Fin 2 → Nat) a + S1x1024.size a ≤ S16x1024.size a
  inb_S16x1024x196_S1x1024x196_8_0_0 : ∀ a, (![8, 0, 0] : Fin 3 → Nat) a + S1x1024x196.size a ≤ S16x1024x196.size a
  inb_S16x1024_S1x1024_9_0 : ∀ a, (![9, 0] : Fin 2 → Nat) a + S1x1024.size a ≤ S16x1024.size a
  inb_S16x1024x196_S1x1024x196_9_0_0 : ∀ a, (![9, 0, 0] : Fin 3 → Nat) a + S1x1024x196.size a ≤ S16x1024x196.size a
  inb_S16x1024_S1x1024_10_0 : ∀ a, (![10, 0] : Fin 2 → Nat) a + S1x1024.size a ≤ S16x1024.size a
  inb_S16x1024x196_S1x1024x196_10_0_0 : ∀ a, (![10, 0, 0] : Fin 3 → Nat) a + S1x1024x196.size a ≤ S16x1024x196.size a
  inb_S16x1024_S1x1024_11_0 : ∀ a, (![11, 0] : Fin 2 → Nat) a + S1x1024.size a ≤ S16x1024.size a
  inb_S16x1024x196_S1x1024x196_11_0_0 : ∀ a, (![11, 0, 0] : Fin 3 → Nat) a + S1x1024x196.size a ≤ S16x1024x196.size a
  inb_S16x1024_S1x1024_12_0 : ∀ a, (![12, 0] : Fin 2 → Nat) a + S1x1024.size a ≤ S16x1024.size a
  inb_S16x1024x196_S1x1024x196_12_0_0 : ∀ a, (![12, 0, 0] : Fin 3 → Nat) a + S1x1024x196.size a ≤ S16x1024x196.size a
  inb_S16x1024_S1x1024_13_0 : ∀ a, (![13, 0] : Fin 2 → Nat) a + S1x1024.size a ≤ S16x1024.size a
  inb_S16x1024x196_S1x1024x196_13_0_0 : ∀ a, (![13, 0, 0] : Fin 3 → Nat) a + S1x1024x196.size a ≤ S16x1024x196.size a
  inb_S16x1024_S1x1024_14_0 : ∀ a, (![14, 0] : Fin 2 → Nat) a + S1x1024.size a ≤ S16x1024.size a
  inb_S16x1024x196_S1x1024x196_14_0_0 : ∀ a, (![14, 0, 0] : Fin 3 → Nat) a + S1x1024x196.size a ≤ S16x1024x196.size a
  inb_S16x1024_S1x1024_15_0 : ∀ a, (![15, 0] : Fin 2 → Nat) a + S1x1024.size a ≤ S16x1024.size a
  inb_S16x1024x196_S1x1024x196_15_0_0 : ∀ a, (![15, 0, 0] : Fin 3 → Nat) a + S1x1024x196.size a ≤ S16x1024x196.size a
  dot_S1024x2048_S2048x196_S1024x196_1_0_0_1_n_n_wf : DotDims.WF S1024x2048 S2048x196 S1024x196 [1] [0] [0] [1] [] []
  dot_S1024x1024_S1024x196_S1024x196_1_0_0_1_n_n_wf : DotDims.WF S1024x1024 S1024x196 S1024x196 [1] [0] [0] [1] [] []
  dot_S1024x1024_S1024x1_S1024x1_1_0_0_1_n_n_wf : DotDims.WF S1024x1024 S1024x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x2048x196.size a ≤ S128x2048x196.size a
  hwx0_0 : ∀ i : grid0.Coords, EltTy.bits .f32 = 32 ∨ (Rect.block (s := S128x2048x196) S4x2048x196.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .bf16 = 32 ∨ (Rect.block (s := S1024x2048) S1024x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1024x196.size a ≤ S128x1024x196.size a
  hwx0_3 : ∀ i : grid0.Coords, EltTy.bits .bf16 = 32 ∨ (Rect.block (s := S128x1024x196) S4x1024x196.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x1024x196.size a ≤ S128x1024x196.size a
  hwx1_0 : ∀ i : grid1.Coords, EltTy.bits .bf16 = 32 ∨ (Rect.block (s := S128x1024x196) S16x1024x196.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x1024.size a ≤ S128x1024.size a
  hwx1_1 : ∀ i : grid1.Coords, EltTy.bits .f32 = 32 ∨ (Rect.block (s := S128x1024) S16x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x1024.size a
  hwx1_2 : ∀ i : grid1.Coords, EltTy.bits .bf16 = 32 ∨ (Rect.block (s := S1024x1024) S1024x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024.size a ≤ S1024.size a
  hwx1_4 : ∀ i : grid1.Coords, EltTy.bits .f32 = 32 ∨ (Rect.block (s := S1024) S1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S1024x1024.size a
  hwx1_5 : ∀ i : grid1.Coords, EltTy.bits .bf16 = 32 ∨ (Rect.block (s := S1024x1024) S1024x1024.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1024x1024.size a ≤ S1024x1024.size a
  hwx1_6 : ∀ i : grid1.Coords, EltTy.bits .bf16 = 32 ∨ (Rect.block (s := S1024x1024) S1024x1024.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1024.size a ≤ S1024.size a
  hwx1_7 : ∀ i : grid1.Coords, EltTy.bits .f32 = 32 ∨ (Rect.block (s := S1024) S1024.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S16x1024.size a ≤ S128x1024.size a
  hwx1_8 : ∀ i : grid1.Coords, EltTy.bits .f32 = 32 ∨ (Rect.block (s := S128x1024) S16x1024.size (cc1_transform_8 i) (hinb1_8 i)).WholeWords (EltTy.packing .f32)

variable [Facts₀]

def dot_S1024x2048_S2048x196_S1024x196_1_0_0_1_n_n : DotDims S1024x2048 S2048x196 S1024x196 where
  lhsContracting := [1]
  rhsContracting := [0]
  lhsNonContracting := [0]
  rhsNonContracting := [1]
  lhsBatch := []
  rhsBatch := []
  wf := dot_S1024x2048_S2048x196_S1024x196_1_0_0_1_n_n_wf
def dot_S1024x1024_S1024x196_S1024x196_1_0_0_1_n_n : DotDims S1024x1024 S1024x196 S1024x196 where
  lhsContracting := [1]
  rhsContracting := [0]
  lhsNonContracting := [0]
  rhsNonContracting := [1]
  lhsBatch := []
  rhsBatch := []
  wf := dot_S1024x1024_S1024x196_S1024x196_1_0_0_1_n_n_wf
def dot_S1024x1024_S1024x1_S1024x1_1_0_0_1_n_n : DotDims S1024x1024 S1024x1 S1024x1 where
  lhsContracting := [1]
  rhsContracting := [0]
  lhsNonContracting := [0]
  rhsNonContracting := [1]
  lhsBatch := []
  rhsBatch := []
  wf := dot_S1024x1024_S1024x1_S1024x1_1_0_0_1_n_n_wf

abbrev win0_0 : Pipeline.Window sig grid0 :=
  Pipeline.Window.ofSpec (Memref.whole main_v0) S4x2048x196.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S4x1024x196.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S16x1024x196.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S16x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1024x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5) S1024x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S1024.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v10) S16x1024.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S128x2048x14x14 : Shape := ⟨4, ![128, 2048, 14, 14]⟩
abbrev S128x20x1024 : Shape := ⟨3, ![128, 20, 1024]⟩
abbrev S1024x2048 : Shape := ⟨2, ![1024, 2048]⟩
abbrev S1024 : Shape := ⟨1, ![1024]⟩
abbrev S1024x1024 : Shape := ⟨2, ![1024, 1024]⟩
abbrev S128x2048x196 : Shape := ⟨3, ![128, 2048, 196]⟩
abbrev S128x196x2048 : Shape := ⟨3, ![128, 196, 2048]⟩
abbrev S128x196x1024 : Shape := ⟨3, ![128, 196, 1024]⟩
abbrev S1x1x1024 : Shape := ⟨3, ![1, 1, 1024]⟩
abbrev S_ : Shape := ⟨0, ![]⟩
abbrev S128x1024 : Shape := ⟨2, ![128, 1024]⟩
abbrev S1x1024 : Shape := ⟨2, ![1, 1024]⟩
abbrev S128x1x1024 : Shape := ⟨3, ![128, 1, 1024]⟩

abbrev nBuf : Space → Nat
  | .hbm => 78
  | .vmem => 0
  | .smem => 0
  | _ => 0

abbrev bufTy : (tb : Table) → Fin (tcTables nBuf tb) → BufTy
  | .hbm, ⟨0, _⟩ => ⟨S128x2048x14x14, .f32⟩
  | .hbm, ⟨1, _⟩ => ⟨S128x20x1024, .f32⟩
  | .hbm, ⟨2, _⟩ => ⟨S1024x2048, .f32⟩
  | .hbm, ⟨3, _⟩ => ⟨S1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S128x2048x196, .f32⟩
  | .hbm, ⟨11, _⟩ => ⟨S128x196x2048, .f32⟩
  | .hbm, ⟨12, _⟩ => ⟨S128x196x1024, .f32⟩
  | .hbm, ⟨13, _⟩ => ⟨S1x1x1024, .f32⟩
  | .hbm, ⟨14, _⟩ => ⟨S128x196x1024, .f32⟩
  | .hbm, ⟨15, _⟩ => ⟨S128x196x1024, .f32⟩
  | .hbm, ⟨16, _⟩ => ⟨S128x196x1024, .f32⟩
  | .hbm, ⟨17, _⟩ => ⟨S_, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S128x196x1024, .f32⟩
  | .hbm, ⟨23, _⟩ => ⟨S1024x1024, .f32⟩
  | .hbm, ⟨24, _⟩ => ⟨S128x1024, .f32⟩
  | .hbm, ⟨25, _⟩ => ⟨S1x1024, .f32⟩
  | .hbm, ⟨26, _⟩ => ⟨S128x1024, .f32⟩
  | .hbm, ⟨27, _⟩ => ⟨S128x1024, .f32⟩
  | .hbm, ⟨28, _⟩ => ⟨S128x1x1024, .f32⟩
  | .hbm, ⟨29, _⟩ => ⟨S128x196x1024, .f32⟩
  | .hbm, ⟨30, _⟩ => ⟨S128x196x1024, .f32⟩
  | .hbm, ⟨31, _⟩ => ⟨S128x196x1024, .f32⟩
  | .hbm, ⟨32, _⟩ => ⟨S_, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S128x1x1024, .f32⟩
  | .hbm, ⟨38, _⟩ => ⟨S128x196x1024, .f32⟩
  | .hbm, ⟨39, _⟩ => ⟨S128x196x1024, .f32⟩
  | .hbm, ⟨40, _⟩ => ⟨S128x196x1024, .f32⟩
  | .hbm, ⟨41, _⟩ => ⟨S_, .f32⟩
  | .hbm, ⟨42, _⟩ => ⟨S128x1024, .f32⟩
  | .hbm, ⟨43, _⟩ => ⟨S128x1x1024, .f32⟩
  | .hbm, ⟨44, _⟩ => ⟨S128x196x1024, .f32⟩
  | .hbm, ⟨45, _⟩ => ⟨S128x196x1024, .f32⟩
  | .hbm, ⟨46, _⟩ => ⟨S128x196x1024, .f32⟩
  | .hbm, ⟨47, _⟩ => ⟨S_, .f32⟩
  | .hbm, ⟨48, _⟩ => ⟨S128x1024, .f32⟩
  | .hbm, ⟨49, _⟩ => ⟨S128x1024, .f32⟩
  | .hbm, ⟨50, _⟩ => ⟨S128x196x1024, .f32⟩
  | .hbm, ⟨51, _⟩ => ⟨S1024x1024, .f32⟩
  | .hbm, ⟨52, _⟩ => ⟨S128x1024, .f32⟩
  | .hbm, ⟨53, _⟩ => ⟨S1x1024, .f32⟩
  | .hbm, ⟨54, _⟩ => ⟨S128x1024, .f32⟩
  | .hbm, ⟨55, _⟩ => ⟨S128x1024, .f32⟩
  | .hbm, ⟨56, _⟩ => ⟨S128x1x1024, .f32⟩
  | .hbm, ⟨57, _⟩ => ⟨S128x196x1024, .f32⟩
  | .hbm, ⟨58, _⟩ => ⟨S128x196x1024, .f32⟩
  | .hbm, ⟨59, _⟩ => ⟨S128x196x1024, .f32⟩
  | .hbm, ⟨60, _⟩ => ⟨S_, .f32⟩
  | .hbm, ⟨61, _⟩ => ⟨S128x1024, .f32⟩
  | .hbm, ⟨62, _⟩ => ⟨S_, .f32⟩
  | .hbm, ⟨63, _⟩ => ⟨S128x1024, .f32⟩
  | .hbm, ⟨64, _⟩ => ⟨S128x1024, .f32⟩
  | .hbm, ⟨65, _⟩ => ⟨S128x1x1024, .f32⟩
  | .hbm, ⟨66, _⟩ => ⟨S128x196x1024, .f32⟩
  | .hbm, ⟨67, _⟩ => ⟨S128x196x1024, .f32⟩
  | .hbm, ⟨68, _⟩ => ⟨S128x196x1024, .f32⟩
  | .hbm, ⟨69, _⟩ => ⟨S_, .f32⟩
  | .hbm, ⟨70, _⟩ => ⟨S128x1024, .f32⟩
  | .hbm, ⟨71, _⟩ => ⟨S128x1x1024, .f32⟩
  | .hbm, ⟨72, _⟩ => ⟨S128x196x1024, .f32⟩
  | .hbm, ⟨73, _⟩ => ⟨S128x196x1024, .f32⟩
  | .hbm, ⟨74, _⟩ => ⟨S128x196x1024, .f32⟩
  | .hbm, ⟨75, _⟩ => ⟨S_, .f32⟩
  | .hbm, ⟨76, _⟩ => ⟨S128x1024, .f32⟩
  | .hbm, ⟨77, _⟩ => ⟨S128x1024, .f32⟩
  | _, _ => ⟨S128x2048x14x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_5 : Ref sig .tc := ⟨.hbm, 60, rfl⟩
abbrev main_v44 : Ref sig .tc := ⟨.hbm, 61, rfl⟩
abbrev main_cst_6 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_7 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_8 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]

class Facts₀ : Prop where
  shapeCasts_S128x2048x14x14_S128x2048x196 : S128x2048x14x14.ShapeCasts S128x2048x196
  transposes_S128x2048x196_S128x196x2048_0_2_1 : S128x2048x196.Transposes [0, 2, 1] S128x196x2048
  bcast_S1024_S1x1x1024_2 : S1024.BroadcastsInDim S1x1x1024 (![2] : Fin 1 → Fin S1x1x1024.rank)
  bcast_S1x1x1024_S128x196x1024_0_1_2 : S1x1x1024.BroadcastsInDim S128x196x1024 (![0, 1, 2] : Fin 3 → Fin S128x196x1024.rank)
  reducesTo_S128x20x1024_S128x1024_d1 : S128x20x1024.ReducesTo [1] S128x1024
  h_S_ : 0 < S_.numel
  bcast_S_S128x1024 : S_.BroadcastsInDim S128x1024 (![] : Fin 0 → Fin S128x1024.rank)
  transposes_S1024x1024_S1024x1024_1_0 : S1024x1024.Transposes [1, 0] S1024x1024
  bcast_S1024_S1x1024_1 : S1024.BroadcastsInDim S1x1024 (![1] : Fin 1 → Fin S1x1024.rank)
  bcast_S1x1024_S128x1024_0_1 : S1x1024.BroadcastsInDim S128x1024 (![0, 1] : Fin 2 → Fin S128x1024.rank)
  bcast_S128x1024_S128x1x1024_0_2 : S128x1024.BroadcastsInDim S128x1x1024 (![0, 2] : Fin 2 → Fin S128x1x1024.rank)
  bcast_S128x1x1024_S128x196x1024_0_1_2 : S128x1x1024.BroadcastsInDim S128x196x1024 (![0, 1, 2] : Fin 3 → Fin S128x196x1024.rank)
  reducesTo_S128x196x1024_S128x1024_d1 : S128x196x1024.ReducesTo [1] S128x1024
  dot_S128x196x2048_S1024x2048_S128x196x1024_2_1_01_0_n_n_wf : DotDims.WF S128x196x2048 S1024x2048 S128x196x1024 [2] [1] [0, 1] [0] [] []
  dot_S128x196x1024_S1024x1024_S128x196x1024_2_1_01_0_n_n_wf : DotDims.WF S128x196x1024 S1024x1024 S128x196x1024 [2] [1] [0, 1] [0] [] []
  dot_S128x1024_S1024x1024_S128x1024_1_0_0_1_n_n_wf : DotDims.WF S128x1024 S1024x1024 S128x1024 [1] [0] [0] [1] [] []

variable [Facts₀]

def dot_S128x196x2048_S1024x2048_S128x196x1024_2_1_01_0_n_n : DotDims S128x196x2048 S1024x2048 S128x196x1024 where
  lhsContracting := [2]
  rhsContracting := [1]
  lhsNonContracting := [0, 1]
  rhsNonContracting := [0]
  lhsBatch := []
  rhsBatch := []
  wf := dot_S128x196x2048_S1024x2048_S128x196x1024_2_1_01_0_n_n_wf
def dot_S128x196x1024_S1024x1024_S128x196x1024_2_1_01_0_n_n : DotDims S128x196x1024 S1024x1024 S128x196x1024 where
  lhsContracting := [2]
  rhsContracting := [1]
  lhsNonContracting := [0, 1]
  rhsNonContracting := [0]
  lhsBatch := []
  rhsBatch := []
  wf := dot_S128x196x1024_S1024x1024_S128x196x1024_2_1_01_0_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

class Facts : Prop extends Facts₀ where

variable [Facts]
-- ==== Proof.KernelRun.lean ====
/-
  The kernel program's run, with the result array in its conclusion.

  The program @main is four segments in a row: a stretch of host operations, a region on the TensorCore, another
  stretch, another region. The buffer contents at the segment boundaries form a fold from the launch memory: a
  stretch replaces the buffers its operations write, a region replaces its arrays by what its write-backs leave.
  Every weakly fair execution from a memory with zero counters terminates without a fault, and in every final state
  each unscoped buffer holds the contents of the last boundary. Read at the argument arrays that says they are as
  launched (nothing writes them, so the fold walks back to the launch memory); read at the result array it says the
  result is the last boundary's contents at that buffer.
-/
import proofs.«168603_j28587302323079_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.isDefEq.respectTransparency.types false in
/-- From any memory with zero counters every weakly fair execution of @main on the TensorCores terminates, nothing
    faulting, and in every final state each unscoped buffer holds the contents of the last segment boundary (the fold
    of the four segments from the launch memory). So the result array holds that fold's value at its buffer, and each
    of the ten argument arrays, which no segment writes, holds what it held at launch. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v10) = Gen.W4 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v10 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.RunValue

end
-- ==== Proof.KernelOps.lean ====
/-
  One sample of each kernel, as one function of that sample's slices of the staged blocks.

  The first kernel works on four images per grid point and the second on sixteen, one after the other, every time
  with the same operations. Here those operations are written once: `sampleA` takes the projection weights, the
  bias and one image's [1, 2048, 196] slice to the projected features of that image, and `sampleB` takes one image's
  projected features, its question vector and the six parameter arrays through the two attention rounds (`roundB`
  is one round). They are stated for any float instance, so that each stored piece of either kernel can be compared
  with them by unfolding alone.
-/
import proofs.«168603_j28587302323079_2_alg».proof.Proof.Gen.KernelIdeal

set_option synthInstance.maxSize 4096

noncomputable section

namespace Cert.KernelIdeal.Ops

open Idealize.ShloMosaic Idealize.SL.Sem Cert.KernelIdeal Cert.KernelIdeal.Facts₀ Cert.KernelIdeal.Facts

variable {F : FTy → Type} [FloatOps F]

/-- One image through the projection: the weights times the image's channels-by-positions slice, plus the bias down
    the rows, through tanh; the result recast as a [1, 1024, 196] slice. -/
def sampleA (w : Vec F S1024x2048 .bf16) (b : Vec F S1024 .f32) (x : Vec F S1x2048x196 .f32) : FVec F S1x1024x196 .bf16 :=
  shapeCast S1x1024x196
    (truncf .bf16
      (tanh (addf
        (matmul dot_S1024x2048_S2048x196_S1024x196_1_0_0_1_n_n none (shapeCast S1024x2048 w shapeCasts_S1024x2048_S1024x2048)
          (truncf .bf16 (shapeCast S2048x196 x shapeCasts_S1x2048x196_S2048x196) bitsLt_bf16_f32) (constant S1024x196 .f32 0x00000000#32))
        (broadcastTo S1024x196 (shapeCast S1024x1 b shapeCasts_S1024_S1024x1) broadcasts_S1024x1_S1024x196)))
      bitsLt_bf16_f32)
    shapeCasts_S1024x196_S1x1024x196

/-- The scores of one round: tanh (wv times the features, plus the column (wu times the question vector, plus bu)
    across the positions). -/
def scoresB (vi : FVec F S1024x196 .bf16) (wv wu : FVec F S1024x1024 .bf16) (bu : Vec F S1024 .f32) (u : FVec F S1024 .f32) :
    FVec F S1024x196 .f32 :=
  tanh (addf (matmul dot_S1024x1024_S1024x196_S1024x196_1_0_0_1_n_n none wv vi (constant S1024x196 .f32 0x00000000#32))
    (broadcastTo S1024x196
      (addf (matmul dot_S1024x1024_S1024x1_S1024x1_1_0_0_1_n_n none wu
          (shapeCast S1024x1 (truncf .bf16 u bitsLt_bf16_f32) shapeCasts_S1024_S1024x1) (constant S1024x1 .f32 0x00000000#32))
        (shapeCast S1024x1 bu shapeCasts_S1024_S1024x1))
      broadcasts_S1024x1_S1024x196))

/-- The unnormalised weights of given scores: exp (score minus the row's largest score). -/
def weightsB (ha : FVec F S1024x196 .f32) : FVec F S1024x196 .f32 :=
  exp (subf ha (broadcastTo S1024x196
    (shapeCast S1024x1 (multiReduction .maximumf [1] S1024 ha 0xFF800000#32 reduces_S1024x196_S1024 (.inl rfl) rfl) shapeCasts_S1024_S1024x1)
    broadcasts_S1024x1_S1024x196))

/-- The growth of the question vector from given weights: each row's sum of (weight / row sum of the weights) times
    the feature. -/
def gainB (vi : FVec F S1024x196 .bf16) (e : FVec F S1024x196 .f32) : FVec F S1024 .f32 :=
  multiReduction .add [1] S1024
    (mulf (divf e (broadcastTo S1024x196
        (shapeCast S1024x1 (multiReduction .add [1] S1024 e 0x00000000#32 reduces_S1024x196_S1024 (.inl rfl) rfl) shapeCasts_S1024_S1024x1)
        broadcasts_S1024x1_S1024x196))
      (extf .f32 vi bitsLt_bf16_f32))
    0x00000000#32 reduces_S1024x196_S1024 (.inl rfl) rfl

/-- One round: the question vector plus its growth. -/
def roundB (vi : FVec F S1024x196 .bf16) (wv wu : FVec F S1024x1024 .bf16) (bu : Vec F S1024 .f32) (u : FVec F S1024 .f32) :
    FVec F S1024 .f32 :=
  addf u (gainB vi (weightsB (scoresB vi wv wu bu u)))

/-- One image through both rounds, from its [1, 1024, 196] slice of the features and its [1, 1024] slice of the
    question vectors; the result recast as a [1, 1024] slice. -/
def sampleB (vi : Vec F S1x1024x196 .bf16) (u : Vec F S1x1024 .f32) (w0 u0 : Vec F S1024x1024 .bf16) (b0 : Vec F S1024 .f32)
    (w1 u1 : Vec F S1024x1024 .bf16) (b1 : Vec F S1024 .f32) : FVec F S1x1024 .f32 :=
  shapeCast S1x1024
    (roundB (shapeCast S1024x196 vi shapeCasts_S1x1024x196_S1024x196)
      (shapeCast S1024x1024 w1 shapeCasts_S1024x1024_S1024x1024) (shapeCast S1024x1024 u1 shapeCasts_S1024x1024_S1024x1024) b1
      (roundB (shapeCast S1024x196 vi shapeCasts_S1x1024x196_S1024x196)
        (shapeCast S1024x1024 w0 shapeCasts_S1024x1024_S1024x1024) (shapeCast S1024x1024 u0 shapeCasts_S1024x1024_S1024x1024) b0
        (shapeCast S1024 u shapeCasts_S1x1024_S1024)))
    shapeCasts_S1024_S1x1024

end Cert.KernelIdeal.Ops

end
-- ==== Proof.Pieces.lean ====
/-
  Every piece the two kernels store is the per-sample function of that sample's loads.

  The first kernel stores four [1, 1024, 196] pieces per grid point and the second sixteen [1, 1024] pieces; the printed
  bodies spell the same operations sample after sample. Each theorem here says that one stored piece, as the body
  computes it from the loaded slices, is `sampleA` / `sampleB` of those slices: both sides unfold to the same term.
-/
import proofs.«168603_j28587302323079_2_alg».proof.Proof.Gen.KernelIdeal.Frame
import proofs.«168603_j28587302323079_2_alg».proof.Proof.KernelOps

set_option synthInstance.maxSize 4096
set_option maxRecDepth 16384

noncomputable section

namespace Cert.KernelIdeal.Pieces

open Idealize.ShloMosaic Idealize.SL.Sem Cert.KernelIdeal Cert.KernelIdeal.Gen Cert.KernelIdeal.Ops

variable {F : FTy → Type} [FloatOps F]

/-- Image 3 of a grid point of the projection. -/
theorem pieceA_3 (x0 : Vec F S4x2048x196 .f32) (x1 : Vec F S1024x2048 .bf16) (x2 : Vec F S1024 .f32) :
    k0_pay2 (k0_pay3 (View.ld x1 r0_0)) (View.ld x2 r0_1) (View.ld x0 r0_8) = sampleA (View.ld x1 r0_0) (View.ld x2 r0_1) (View.ld x0 r0_8) := rfl

/-- Image 2 of a grid point of the projection. -/
theorem pieceA_2 (x0 : Vec F S4x2048x196 .f32) (x1 : Vec F S1024x2048 .bf16) (x2 : Vec F S1024 .f32) :
    k0_pay1 (k0_pay6 (View.ld x1 r0_0) (View.ld x2 r0_1) (View.ld x0 r0_6)) = sampleA (View.ld x1 r0_0) (View.ld x2 r0_1) (View.ld x0 r0_6) := rfl

/-- Image 1 of a grid point of the projection. -/
theorem pieceA_1 (x0 : Vec F S4x2048x196 .f32) (x1 : Vec F S1024x2048 .bf16) (x2 : Vec F S1024 .f32) :
    k0_pay5 (View.ld x1 r0_0) (View.ld x2 r0_1) (View.ld x0 r0_4) = sampleA (View.ld x1 r0_0) (View.ld x2 r0_1) (View.ld x0 r0_4) := rfl

/-- Image 0 of a grid point of the projection. -/
theorem pieceA_0 (x0 : Vec F S4x2048x196 .f32) (x1 : Vec F S1024x2048 .bf16) (x2 : Vec F S1024 .f32) :
    k0_pay4 (View.ld x1 r0_0) (View.ld x2 r0_1) (View.ld x0 r0_2) = sampleA (View.ld x1 r0_0) (View.ld x2 r0_1) (View.ld x0 r0_2) := rfl

/-- Image 15 of a grid point of the attention rounds. -/
theorem pieceB_15 (x0 : Vec F S16x1024x196 .bf16) (x1 : Vec F S16x1024 .f32) (x2 x3 : Vec F S1024x1024 .bf16) (x4 : Vec F S1024 .f32)
    (x5 x6 : Vec F S1024x1024 .bf16) (x7 : Vec F S1024 .f32) :
    k1_pay1 (k1_pay71 (k1_pay4 (View.ld x5 r1_0)) (k1_pay5 (View.ld x6 r1_0)) (View.ld x7 r1_1) (k1_pay67 (View.ld x1 r1_32)) (k1_pay68 (View.ld x0 r1_33)) (k1_pay69 (k1_pay2 (View.ld x2 r1_0)) (k1_pay3 (View.ld x3 r1_0)) (View.ld x4 r1_1) (View.ld x1 r1_32) (View.ld x0 r1_33)) (k1_pay70 (k1_pay2 (View.ld x2 r1_0)) (k1_pay3 (View.ld x3 r1_0)) (View.ld x4 r1_1) (View.ld x1 r1_32) (View.ld x0 r1_33)))
      = sampleB (View.ld x0 r1_33) (View.ld x1 r1_32) (View.ld x2 r1_0) (View.ld x3 r1_0) (View.ld x4 r1_1) (View.ld x5 r1_0) (View.ld x6 r1_0) (View.ld x7 r1_1) := rfl

/-- Image 14 of a grid point of the attention rounds. -/
theorem pieceB_14 (x0 : Vec F S16x1024x196 .bf16) (x1 : Vec F S16x1024 .f32) (x2 x3 : Vec F S1024x1024 .bf16) (x4 : Vec F S1024 .f32)
    (x5 x6 : Vec F S1024x1024 .bf16) (x7 : Vec F S1024 .f32) :
    k1_pay66 (k1_pay4 (View.ld x5 r1_0)) (k1_pay5 (View.ld x6 r1_0)) (View.ld x7 r1_1) (k1_pay63 (View.ld x1 r1_30)) (k1_pay64 (View.ld x0 r1_31)) (k1_pay65 (k1_pay2 (View.ld x2 r1_0)) (k1_pay3 (View.ld x3 r1_0)) (View.ld x4 r1_1) (View.ld x1 r1_30) (View.ld x0 r1_31))
      = sampleB (View.ld x0 r1_31) (View.ld x1 r1_30) (View.ld x2 r1_0) (View.ld x3 r1_0) (View.ld x4 r1_1) (View.ld x5 r1_0) (View.ld x6 r1_0) (View.ld x7 r1_1) := rfl

/-- Image 13 of a grid point of the attention rounds. -/
theorem pieceB_13 (x0 : Vec F S16x1024x196 .bf16) (x1 : Vec F S16x1024 .f32) (x2 x3 : Vec F S1024x1024 .bf16) (x4 : Vec F S1024 .f32)
    (x5 x6 : Vec F S1024x1024 .bf16) (x7 : Vec F S1024 .f32) :
    k1_pay62 (View.ld x7 r1_1) (k1_pay58 (View.ld x0 r1_29)) (k1_pay59 (k1_pay2 (View.ld x2 r1_0)) (k1_pay3 (View.ld x3 r1_0)) (View.ld x4 r1_1) (View.ld x1 r1_28) (View.ld x0 r1_29)) (k1_pay60 (k1_pay4 (View.ld x5 r1_0)) (View.ld x0 r1_29)) (k1_pay61 (k1_pay2 (View.ld x2 r1_0)) (k1_pay3 (View.ld x3 r1_0)) (View.ld x4 r1_1) (k1_pay5 (View.ld x6 r1_0)) (View.ld x1 r1_28) (View.ld x0 r1_29))
      = sampleB (View.ld x0 r1_29) (View.ld x1 r1_28) (View.ld x2 r1_0) (View.ld x3 r1_0) (View.ld x4 r1_1) (View.ld x5 r1_0) (View.ld x6 r1_0) (View.ld x7 r1_1) := rfl

/-- Image 12 of a grid point of the attention rounds. -/
theorem pieceB_12 (x0 : Vec F S16x1024x196 .bf16) (x1 : Vec F S16x1024 .f32) (x2 x3 : Vec F S1024x1024 .bf16) (x4 : Vec F S1024 .f32)
    (x5 x6 : Vec F S1024x1024 .bf16) (x7 : Vec F S1024 .f32) :
    k1_pay57 (k1_pay53 (View.ld x0 r1_27)) (k1_pay54 (k1_pay2 (View.ld x2 r1_0)) (k1_pay3 (View.ld x3 r1_0)) (View.ld x4 r1_1) (View.ld x1 r1_26) (View.ld x0 r1_27)) (k1_pay55 (k1_pay2 (View.ld x2 r1_0)) (k1_pay3 (View.ld x3 r1_0)) (View.ld x4 r1_1) (k1_pay4 (View.ld x5 r1_0)) (k1_pay5 (View.ld x6 r1_0)) (View.ld x7 r1_1) (View.ld x1 r1_26) (View.ld x0 r1_27)) (k1_pay56 (k1_pay2 (View.ld x2 r1_0)) (k1_pay3 (View.ld x3 r1_0)) (View.ld x4 r1_1) (k1_pay4 (View.ld x5 r1_0)) (k1_pay5 (View.ld x6 r1_0)) (View.ld x7 r1_1) (View.ld x1 r1_26) (View.ld x0 r1_27))
      = sampleB (View.ld x0 r1_27) (View.ld x1 r1_26) (View.ld x2 r1_0) (View.ld x3 r1_0) (View.ld x4 r1_1) (View.ld x5 r1_0) (View.ld x6 r1_0) (View.ld x7 r1_1) := rfl

/-- Image 11 of a grid point of the attention rounds. -/
theorem pieceB_11 (x0 : Vec F S16x1024x196 .bf16) (x1 : Vec F S16x1024 .f32) (x2 x3 : Vec F S1024x1024 .bf16) (x4 : Vec F S1024 .f32)
    (x5 x6 : Vec F S1024x1024 .bf16) (x7 : Vec F S1024 .f32) :
    k1_pay52 (k1_pay50 (k1_pay2 (View.ld x2 r1_0)) (k1_pay3 (View.ld x3 r1_0)) (View.ld x4 r1_1) (View.ld x1 r1_24) (View.ld x0 r1_25)) (k1_pay51 (k1_pay2 (View.ld x2 r1_0)) (k1_pay3 (View.ld x3 r1_0)) (View.ld x4 r1_1) (k1_pay4 (View.ld x5 r1_0)) (k1_pay5 (View.ld x6 r1_0)) (View.ld x7 r1_1) (View.ld x1 r1_24) (View.ld x0 r1_25))
      = sampleB (View.ld x0 r1_25) (View.ld x1 r1_24) (View.ld x2 r1_0) (View.ld x3 r1_0) (View.ld x4 r1_1) (View.ld x5 r1_0) (View.ld x6 r1_0) (View.ld x7 r1_1) := rfl

/-- Image 10 of a grid point of the attention rounds. -/
theorem pieceB_10 (x0 : Vec F S16x1024x196 .bf16) (x1 : Vec F S16x1024 .f32) (x2 x3 : Vec F S1024x1024 .bf16) (x4 : Vec F S1024 .f32)
    (x5 x6 : Vec F S1024x1024 .bf16) (x7 : Vec F S1024 .f32) :
    k1_pay48 (k1_pay2 (View.ld x2 r1_0)) (k1_pay3 (View.ld x3 r1_0)) (View.ld x4 r1_1) (k1_pay4 (View.ld x5 r1_0)) (k1_pay5 (View.ld x6 r1_0)) (View.ld x7 r1_1) (k1_pay46 (View.ld x1 r1_22)) (k1_pay47 (View.ld x0 r1_23))
      = sampleB (View.ld x0 r1_23) (View.ld x1 r1_22) (View.ld x2 r1_0) (View.ld x3 r1_0) (View.ld x4 r1_1) (View.ld x5 r1_0) (View.ld x6 r1_0) (View.ld x7 r1_1) := rfl

/-- Image 9 of a grid point of the attention rounds. -/
theorem pieceB_9 (x0 : Vec F S16x1024x196 .bf16) (x1 : Vec F S16x1024 .f32) (x2 x3 : Vec F S1024x1024 .bf16) (x4 : Vec F S1024 .f32)
    (x5 x6 : Vec F S1024x1024 .bf16) (x7 : Vec F S1024 .f32) :
    k1_pay45 (k1_pay4 (View.ld x5 r1_0)) (k1_pay5 (View.ld x6 r1_0)) (View.ld x7 r1_1) (k1_pay41 (View.ld x1 r1_20)) (k1_pay42 (View.ld x0 r1_21)) (k1_pay43 (k1_pay2 (View.ld x2 r1_0)) (View.ld x0 r1_21)) (k1_pay44 (k1_pay3 (View.ld x3 r1_0)) (View.ld x4 r1_1) (View.ld x1 r1_20))
      = sampleB (View.ld x0 r1_21) (View.ld x1 r1_20) (View.ld x2 r1_0) (View.ld x3 r1_0) (View.ld x4 r1_1) (View.ld x5 r1_0) (View.ld x6 r1_0) (View.ld x7 r1_1) := rfl

/-- Image 8 of a grid point of the attention rounds. -/
theorem pieceB_8 (x0 : Vec F S16x1024x196 .bf16) (x1 : Vec F S16x1024 .f32) (x2 x3 : Vec F S1024x1024 .bf16) (x4 : Vec F S1024 .f32)
    (x5 x6 : Vec F S1024x1024 .bf16) (x7 : Vec F S1024 .f32) :
    k1_pay40 (k1_pay4 (View.ld x5 r1_0)) (k1_pay5 (View.ld x6 r1_0)) (View.ld x7 r1_1) (k1_pay37 (View.ld x1 r1_18)) (k1_pay38 (View.ld x0 r1_19)) (k1_pay39 (k1_pay2 (View.ld x2 r1_0)) (k1_pay3 (View.ld x3 r1_0)) (View.ld x4 r1_1) (View.ld x1 r1_18) (View.ld x0 r1_19))
      = sampleB (View.ld x0 r1_19) (View.ld x1 r1_18) (View.ld x2 r1_0) (View.ld x3 r1_0) (View.ld x4 r1_1) (View.ld x5 r1_0) (View.ld x6 r1_0) (View.ld x7 r1_1) := rfl

/-- Image 7 of a grid point of the attention rounds. -/
theorem pieceB_7 (x0 : Vec F S16x1024x196 .bf16) (x1 : Vec F S16x1024 .f32) (x2 x3 : Vec F S1024x1024 .bf16) (x4 : Vec F S1024 .f32)
    (x5 x6 : Vec F S1024x1024 .bf16) (x7 : Vec F S1024 .f32) :
    k1_pay36 (k1_pay4 (View.ld x5 r1_0)) (k1_pay5 (View.ld x6 r1_0)) (View.ld x7 r1_1) (k1_pay34 (View.ld x0 r1_17)) (k1_pay35 (k1_pay2 (View.ld x2 r1_0)) (k1_pay3 (View.ld x3 r1_0)) (View.ld x4 r1_1) (View.ld x1 r1_16) (View.ld x0 r1_17))
      = sampleB (View.ld x0 r1_17) (View.ld x1 r1_16) (View.ld x2 r1_0) (View.ld x3 r1_0) (View.ld x4 r1_1) (View.ld x5 r1_0) (View.ld x6 r1_0) (View.ld x7 r1_1) := rfl

/-- Image 6 of a grid point of the attention rounds. -/
theorem pieceB_6 (x0 : Vec F S16x1024x196 .bf16) (x1 : Vec F S16x1024 .f32) (x2 x3 : Vec F S1024x1024 .bf16) (x4 : Vec F S1024 .f32)
    (x5 x6 : Vec F S1024x1024 .bf16) (x7 : Vec F S1024 .f32) :
    k1_pay33 (k1_pay29 (View.ld x0 r1_15)) (k1_pay30 (k1_pay2 (View.ld x2 r1_0)) (k1_pay3 (View.ld x3 r1_0)) (View.ld x4 r1_1) (View.ld x1 r1_14) (View.ld x0 r1_15)) (k1_pay31 (k1_pay4 (View.ld x5 r1_0)) (View.ld x0 r1_15)) (k1_pay32 (k1_pay2 (View.ld x2 r1_0)) (k1_pay3 (View.ld x3 r1_0)) (View.ld x4 r1_1) (k1_pay5 (View.ld x6 r1_0)) (View.ld x7 r1_1) (View.ld x1 r1_14) (View.ld x0 r1_15))
      = sampleB (View.ld x0 r1_15) (View.ld x1 r1_14) (View.ld x2 r1_0) (View.ld x3 r1_0) (View.ld x4 r1_1) (View.ld x5 r1_0) (View.ld x6 r1_0) (View.ld x7 r1_1) := rfl

/-- Image 5 of a grid point of the attention rounds. -/
theorem pieceB_5 (x0 : Vec F S16x1024x196 .bf16) (x1 : Vec F S16x1024 .f32) (x2 x3 : Vec F S1024x1024 .bf16) (x4 : Vec F S1024 .f32)
    (x5 x6 : Vec F S1024x1024 .bf16) (x7 : Vec F S1024 .f32) :
    k1_pay28 (k1_pay25 (View.ld x0 r1_13)) (k1_pay26 (k1_pay2 (View.ld x2 r1_0)) (k1_pay3 (View.ld x3 r1_0)) (View.ld x4 r1_1) (View.ld x1 r1_12) (View.ld x0 r1_13)) (k1_pay27 (k1_pay2 (View.ld x2 r1_0)) (k1_pay3 (View.ld x3 r1_0)) (View.ld x4 r1_1) (k1_pay4 (View.ld x5 r1_0)) (k1_pay5 (View.ld x6 r1_0)) (View.ld x7 r1_1) (View.ld x1 r1_12) (View.ld x0 r1_13))
      = sampleB (View.ld x0 r1_13) (View.ld x1 r1_12) (View.ld x2 r1_0) (View.ld x3 r1_0) (View.ld x4 r1_1) (View.ld x5 r1_0) (View.ld x6 r1_0) (View.ld x7 r1_1) := rfl

/-- Image 4 of a grid point of the attention rounds. -/
theorem pieceB_4 (x0 : Vec F S16x1024x196 .bf16) (x1 : Vec F S16x1024 .f32) (x2 x3 : Vec F S1024x1024 .bf16) (x4 : Vec F S1024 .f32)
    (x5 x6 : Vec F S1024x1024 .bf16) (x7 : Vec F S1024 .f32) :
    k1_pay24 (k1_pay23 (k1_pay2 (View.ld x2 r1_0)) (k1_pay3 (View.ld x3 r1_0)) (View.ld x4 r1_1) (k1_pay4 (View.ld x5 r1_0)) (k1_pay5 (View.ld x6 r1_0)) (View.ld x7 r1_1) (View.ld x1 r1_10) (View.ld x0 r1_11))
      = sampleB (View.ld x0 r1_11) (View.ld x1 r1_10) (View.ld x2 r1_0) (View.ld x3 r1_0) (View.ld x4 r1_1) (View.ld x5 r1_0) (View.ld x6 r1_0) (View.ld x7 r1_1) := rfl

/-- Image 3 of a grid point of the attention rounds. -/
theorem pieceB_3 (x0 : Vec F S16x1024x196 .bf16) (x1 : Vec F S16x1024 .f32) (x2 x3 : Vec F S1024x1024 .bf16) (x4 : Vec F S1024 .f32)
    (x5 x6 : Vec F S1024x1024 .bf16) (x7 : Vec F S1024 .f32) :
    k1_pay22 (k1_pay2 (View.ld x2 r1_0)) (k1_pay3 (View.ld x3 r1_0)) (View.ld x4 r1_1) (k1_pay4 (View.ld x5 r1_0)) (k1_pay5 (View.ld x6 r1_0)) (View.ld x7 r1_1) (k1_pay19 (View.ld x1 r1_8)) (k1_pay20 (View.ld x0 r1_9)) (k1_pay21 (View.ld x1 r1_8)) (constant S1024x196 .f32 0x00000000#32)
      = sampleB (View.ld x0 r1_9) (View.ld x1 r1_8) (View.ld x2 r1_0) (View.ld x3 r1_0) (View.ld x4 r1_1) (View.ld x5 r1_0) (View.ld x6 r1_0) (View.ld x7 r1_1) := rfl

/-- Image 2 of a grid point of the attention rounds. -/
theorem pieceB_2 (x0 : Vec F S16x1024x196 .bf16) (x1 : Vec F S16x1024 .f32) (x2 x3 : Vec F S1024x1024 .bf16) (x4 : Vec F S1024 .f32)
    (x5 x6 : Vec F S1024x1024 .bf16) (x7 : Vec F S1024 .f32) :
    k1_pay18 (k1_pay4 (View.ld x5 r1_0)) (k1_pay5 (View.ld x6 r1_0)) (View.ld x7 r1_1) (k1_pay15 (View.ld x1 r1_6)) (k1_pay16 (View.ld x0 r1_7)) (k1_pay17 (k1_pay2 (View.ld x2 r1_0)) (k1_pay3 (View.ld x3 r1_0)) (View.ld x4 r1_1) (View.ld x1 r1_6) (View.ld x0 r1_7))
      = sampleB (View.ld x0 r1_7) (View.ld x1 r1_6) (View.ld x2 r1_0) (View.ld x3 r1_0) (View.ld x4 r1_1) (View.ld x5 r1_0) (View.ld x6 r1_0) (View.ld x7 r1_1) := rfl

/-- Image 1 of a grid point of the attention rounds. -/
theorem pieceB_1 (x0 : Vec F S16x1024x196 .bf16) (x1 : Vec F S16x1024 .f32) (x2 x3 : Vec F S1024x1024 .bf16) (x4 : Vec F S1024 .f32)
    (x5 x6 : Vec F S1024x1024 .bf16) (x7 : Vec F S1024 .f32) :
    k1_pay14 (k1_pay4 (View.ld x5 r1_0)) (k1_pay5 (View.ld x6 r1_0)) (View.ld x7 r1_1) (k1_pay10 (View.ld x1 r1_4)) (k1_pay11 (View.ld x0 r1_5)) (k1_pay12 (k1_pay2 (View.ld x2 r1_0)) (k1_pay3 (View.ld x3 r1_0)) (View.ld x4 r1_1) (View.ld x1 r1_4) (View.ld x0 r1_5)) (k1_pay13 (k1_pay2 (View.ld x2 r1_0)) (k1_pay3 (View.ld x3 r1_0)) (View.ld x4 r1_1) (View.ld x1 r1_4) (View.ld x0 r1_5))
      = sampleB (View.ld x0 r1_5) (View.ld x1 r1_4) (View.ld x2 r1_0) (View.ld x3 r1_0) (View.ld x4 r1_1) (View.ld x5 r1_0) (View.ld x6 r1_0) (View.ld x7 r1_1) := rfl

/-- Image 0 of a grid point of the attention rounds. -/
theorem pieceB_0 (x0 : Vec F S16x1024x196 .bf16) (x1 : Vec F S16x1024 .f32) (x2 x3 : Vec F S1024x1024 .bf16) (x4 : Vec F S1024 .f32)
    (x5 x6 : Vec F S1024x1024 .bf16) (x7 : Vec F S1024 .f32) :
    k1_pay9 (k1_pay4 (View.ld x5 r1_0)) (k1_pay5 (View.ld x6 r1_0)) (View.ld x7 r1_1) (k1_pay6 (View.ld x0 r1_3)) (k1_pay7 (View.ld x2 r1_0) (View.ld x3 r1_0) (View.ld x4 r1_1) (View.ld x1 r1_2) (View.ld x0 r1_3)) (k1_pay8 (View.ld x2 r1_0) (View.ld x3 r1_0) (View.ld x4 r1_1) (View.ld x1 r1_2) (View.ld x0 r1_3)) (constant S1024x196 .f32 0x00000000#32)
      = sampleB (View.ld x0 r1_3) (View.ld x1 r1_2) (View.ld x2 r1_0) (View.ld x3 r1_0) (View.ld x4 r1_1) (View.ld x5 r1_0) (View.ld x6 r1_0) (View.ld x7 r1_1) := rfl

end Cert.KernelIdeal.Pieces

end
-- ==== Proof.Spec.lean ====
/-
  The mathematics both programs compute, on the extended reals, as plain functions of finitely indexed families.

  An image of 2048 channels over 196 positions is projected to 1024 features per position: feature h at position s
  is tanh of row h of the projection weights against the channels at s, plus a bias. A question vector starts as the
  mean of 20 time steps. Then, twice, every feature k scores each position by tanh of (row k of one weight matrix
  against the projected features at that position) plus (row k of another against the current question vector, plus
  a bias); the scores of a feature over the 196 positions are turned into weights exp(score - largest score),
  normalised by their sum; and the question vector's entry k grows by the weighted sum of projected feature k over
  the positions. Nothing here distributes a product over a sum or cancels anything, so the formulas make sense, and
  are compared, at infinite values as well.
-/
import Idealize.ShloMosaic.PureOps.Ideal

noncomputable section

open scoped BigOperators

namespace Cert.Attn

open Idealize.ShloMosaic

/-- Feature h at position s of one image: tanh (sum over channels c of w h c * x c s, plus b h). -/
def proj (x : Fin 2048 → Fin 196 → EReal) (w : Fin 1024 → Fin 2048 → EReal) (b : Fin 1024 → EReal)
    (h : Fin 1024) (s : Fin 196) : EReal :=
  Ideal.tanh ((∑ c : Fin 2048, w h c * x c s) + b h)

/-- The mean over the 20 time steps of entry h: the sum from zero, divided by twenty (both as the f32 words the
    programs spell them with). -/
def mean20 (q : Fin 20 → Fin 1024 → EReal) (h : Fin 1024) : EReal :=
  Ideal.div (Ideal.ofBits .f32 0x00000000#32 + ∑ t : Fin 20, q t h) (Ideal.ofBits .f32 0x41A00000#32)

/-- Feature k's score of position s: tanh (row k of wv against the features at s, plus (row k of wu against the
    question vector, plus bu k)). -/
def score (vi : Fin 1024 → Fin 196 → EReal) (wv wu : Fin 1024 → Fin 1024 → EReal) (bu u : Fin 1024 → EReal)
    (k : Fin 1024) (s : Fin 196) : EReal :=
  Ideal.tanh ((∑ h : Fin 1024, wv k h * vi h s) + ((∑ h : Fin 1024, wu k h * u h) + bu k))

/-- The largest of 196 scores: the fold of max from the f32 word for minus infinity. -/
def peak (f : Fin 196 → EReal) : EReal :=
  (Finset.univ : Finset (Fin 196)).fold max (Ideal.ofBits .f32 0xFF800000#32) f

/-- The unnormalised weight of position s: exp (score - largest score). -/
def weight (f : Fin 196 → EReal) (s : Fin 196) : EReal := Ideal.exp (f s - peak f)

/-- One round: entry k of the question vector grows by the sum over positions of
    (weight / sum of the weights) * feature k at that position. -/
def step (vi : Fin 1024 → Fin 196 → EReal) (wv wu : Fin 1024 → Fin 1024 → EReal) (bu u : Fin 1024 → EReal)
    (k : Fin 1024) : EReal :=
  u k + ∑ s : Fin 196,
    Ideal.div (weight (score vi wv wu bu u k) s) (∑ t : Fin 196, weight (score vi wv wu bu u k) t) * vi k s

/-- Two rounds from a starting vector, the first with (w0, u0, b0), the second with (w1, u1, b1). -/
def twice (vi : Fin 1024 → Fin 196 → EReal) (w0 u0 : Fin 1024 → Fin 1024 → EReal) (b0 : Fin 1024 → EReal)
    (w1 u1 : Fin 1024 → Fin 1024 → EReal) (b1 : Fin 1024 → EReal) (u : Fin 1024 → EReal) : Fin 1024 → EReal :=
  step vi w1 u1 b1 (step vi w0 u0 b0 u)

/-- The whole computation at sample b, entry k. -/
def result (x : Fin 128 → Fin 2048 → Fin 196 → EReal) (q : Fin 128 → Fin 20 → Fin 1024 → EReal)
    (lw : Fin 1024 → Fin 2048 → EReal) (lb : Fin 1024 → EReal)
    (w0 u0 : Fin 1024 → Fin 1024 → EReal) (b0 : Fin 1024 → EReal)
    (w1 u1 : Fin 1024 → Fin 1024 → EReal) (b1 : Fin 1024 → EReal) (b : Fin 128) (k : Fin 1024) : EReal :=
  twice (proj (x b) lw lb) w0 u0 b0 w1 u1 b1 (mean20 (q b)) k

end Cert.Attn

end
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.LibRowReduce.lean ====
/-
  Reductions of an n x k array along its rows, read at a row given by its coordinate. The reduced index (r) with the
  inner coordinate j put back is the array index (r, j); so a lane sum at r is the finite sum over j of the entries
  (r, j), a lane maximum is the fold of max over them from the accumulator's value, and the host's sum and maximum
  over the same axis are the same sum (after the initial value) and the same fold (from the initial value).
-/
import Idealize.ShloMosaic.PureOps.Ideal.Laws
import Idealize.ShloMosaic.PureOps.Reduce
import Idealize.ShloMosaic.Lib.ValueIdx

noncomputable section

open scoped BigOperators

namespace Idealize.ShloMosaic.ValueIdx

open Idealize.ShloMosaic

/-- Row r's reduced index with the inner coordinate j inserted is (r, j). -/
theorem lift_row {n k : ℕ} (h : (⟨2, ![n, k]⟩ : Shape).Reduces [1] (⟨1, ![n]⟩ : Shape)) (r : Fin n)
    (j : Fin ((⟨2, ![n, k]⟩ : Shape).size 1)) : h.lift (ix1 r) j = ix2 r (⟨j.val, j.isLt⟩ : Fin k) := by
  funext c; apply Fin.ext
  fin_cases c <;> rfl

/-- A lane sum over the second axis, at row r: the sum of the row's entries. -/
theorem multiReduction_add_row {n k : ℕ} {φ : FTy} (src : FVec Ideal (⟨2, ![n, k]⟩ : Shape) φ) (acc : BitVec φ.bits)
    (h : (⟨2, ![n, k]⟩ : Shape).Reduces [1] (⟨1, ![n]⟩ : Shape)) (hφ : FKind.Formats φ) (hacc : acc = FKind.add.neutral φ hφ) (r : Fin n) :
    multiReduction .add [1] (⟨1, ![n]⟩ : Shape) src acc h hφ hacc (ix1 r) = ∑ j : Fin k, (src (ix2 r j) : EReal) :=
  (Ideal.multiReduction_add_single src acc h hφ hacc (ix1 r)).trans
    (Finset.sum_congr rfl fun j _ => congrArg src (lift_row h r j))

/-- A lane maximum over the second axis, at row r: the fold of max over the row's entries from the accumulator's value. -/
theorem multiReduction_max_row {n k : ℕ} {φ : FTy} (src : FVec Ideal (⟨2, ![n, k]⟩ : Shape) φ) (acc : BitVec φ.bits)
    (h : (⟨2, ![n, k]⟩ : Shape).Reduces [1] (⟨1, ![n]⟩ : Shape)) (hφ : FKind.Formats φ) (hacc : acc = FKind.maximumf.neutral φ hφ) (r : Fin n) :
    multiReduction .maximumf [1] (⟨1, ![n]⟩ : Shape) src acc h hφ hacc (ix1 r)
      = (Finset.univ : Finset (Fin k)).fold max (Ideal.ofBits φ acc) (fun j => (src (ix2 r j) : EReal)) :=
  (Ideal.multiReduction_maximumf_single src acc h hφ hacc (ix1 r)).trans
    (congrArg (fun f => Finset.fold max (Ideal.ofBits φ acc) f (Finset.univ : Finset (Fin k)))
      (funext fun j => congrArg src (lift_row h r j)))

/-- The host's sum over the second axis, at row r: the initial value plus the sum of the row's entries. -/
theorem hostReduceAdd_row {n k : ℕ} (h' : (⟨2, ![n, k]⟩ : Shape).ReducesTo [1] (⟨1, ![n]⟩ : Shape))
    (h : (⟨2, ![n, k]⟩ : Shape).Reduces [1] (⟨1, ![n]⟩ : Shape)) (x : (⟨2, ![n, k]⟩ : Shape).Idx → EReal) (init : EReal) (r : Fin n) :
    Ideal.hostReduceAdd h' x init (ix1 r) = init + ∑ j : Fin k, x (ix2 r j) :=
  (Ideal.hostReduceAdd_single h' h x init (ix1 r)).trans
    (congrArg (init + ·) (Finset.sum_congr rfl fun j _ => congrArg x (lift_row h r j)))

/-- The host's maximum over the second axis, at row r: the fold of max over the row's entries from the initial value. -/
theorem hostReduce_max_row {n k : ℕ} {φ : FTy} {u : Shape} (h' : (⟨2, ![n, k]⟩ : Shape).ReducesTo [1] (⟨1, ![n]⟩ : Shape))
    (h : (⟨2, ![n, k]⟩ : Shape).Reduces [1] (⟨1, ![n]⟩ : Shape)) (x : FVec Ideal (⟨2, ![n, k]⟩ : Shape) φ) (init : u.Idx → Ideal φ)
    (hu : 0 < u.numel) (r : Fin n) :
    Host.reduce FloatOps.maximumf x init h' hu (ix1 r)
      = (Finset.univ : Finset (Fin k)).fold max (init (Shape.Idx.first hu) : EReal) (fun j => (x (ix2 r j) : EReal)) :=
  (Host.reduce_eq_fold_single FloatOps.maximumf x init h' h hu (ix1 r)).trans
    (congrArg (fun f => Finset.fold max (init (Shape.Idx.first hu) : EReal) f (Finset.univ : Finset (Fin k)))
      (funext fun j => congrArg x (lift_row h r j)))

/-- Folding max from a value b over any entries gives something at least b: taking the maximum with b again changes nothing. -/
theorem max_fold_max_self {ι : Type} (s : Finset ι) (b : EReal) (f : ι → EReal) : max b (s.fold max b f) = s.fold max b f :=
  max_eq_right (Finset.le_fold_max b |>.mpr (Or.inl le_rfl))

end Idealize.ShloMosaic.ValueIdx

end
-- ==== Proof.LibKeepdims.lean ====
/-
  Two layout operations of a row reduction kept as a column (`keepdims=True`), read at an index given by coordinates:
  a vector of length `a` recast as an `a × 1` column, and an `a × 1` column broadcast across `b` columns.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelVal.lean ====
/-
  The per-sample functions of the two kernels, read at an index on the extended reals.

  At the extended reals a change of float format is the identity, a matrix-unit product into zeros is the finite sum
  of products over the inner position, a lane sum is the finite sum over the row and a lane maximum the fold of max
  over the row. Read through those, one image's projection is `Cert.Attn.proj` of the image's slice, and one
  attention round on a [1024, 196] feature array and a [1024] question vector is `Cert.Attn.step` — entry k depends
  on row k of the two weight matrices, on the whole feature array (through the scores) and on the whole question
  vector.
-/
import proofs.«168603_j28587302323079_2_alg».proof.Proof.KernelOps
import proofs.«168603_j28587302323079_2_alg».proof.Proof.Spec
import proofs.«168603_j28587302323079_2_alg».proof.Proof.LibDotIx2
import proofs.«168603_j28587302323079_2_alg».proof.Proof.LibRowReduce
import proofs.«168603_j28587302323079_2_alg».proof.Proof.LibKeepdims
import Idealize.ShloMosaic.Lib.ValueLayout
import Idealize.ShloMosaic.Lib.ValueIdx
import Idealize.ShloMosaic.Lib.Pipeline.Value
import Idealize.ShloMosaic.PureOps.Ideal.Laws

set_option synthInstance.maxSize 4096

noncomputable section

open scoped BigOperators

namespace Cert.KernelIdeal.OpsVal

open Idealize.ShloMosaic Idealize.ShloMosaic.ValueIdx Cert.KernelIdeal Cert.KernelIdeal.Ops Cert.KernelIdeal.Facts₀ Cert.KernelIdeal.Facts

/-- The dimension numbers of this product are those of a plain rows-by-inner times inner-by-columns product. -/
theorem plainProj : PlainDot dot_S1024x2048_S2048x196_S1024x196_1_0_0_1_n_n where
  rank := rfl
  size := rfl
  l0 := fun j q => by
    unfold DotDims.lhsIdx
    rw [dif_neg (show ¬(0 : Fin S1024x2048.rank) ∈ dot_S1024x2048_S2048x196_S1024x196_1_0_0_1_n_n.lhsBatch by decide), dif_pos (show (0 : Fin S1024x2048.rank) ∈ dot_S1024x2048_S2048x196_S1024x196_1_0_0_1_n_n.lhsNonContracting by decide)]
    rfl
  l1 := fun j q => dot_S1024x2048_S2048x196_S1024x196_1_0_0_1_n_n.lhsIdx_val_of_single rfl j q
  r0 := fun j q => dot_S1024x2048_S2048x196_S1024x196_1_0_0_1_n_n.rhsIdx_val_of_single rfl j q
  r1 := fun j q => by
    unfold DotDims.rhsIdx
    rw [dif_neg (show ¬(1 : Fin S2048x196.rank) ∈ dot_S1024x2048_S2048x196_S1024x196_1_0_0_1_n_n.rhsBatch by decide), dif_pos (show (1 : Fin S2048x196.rank) ∈ dot_S1024x2048_S2048x196_S1024x196_1_0_0_1_n_n.rhsNonContracting by decide)]
    rfl

/-- The dimension numbers of this product are those of a plain rows-by-inner times inner-by-columns product. -/
theorem plainFeat : PlainDot dot_S1024x1024_S1024x196_S1024x196_1_0_0_1_n_n where
  rank := rfl
  size := rfl
  l0 := fun j q => by
    unfold DotDims.lhsIdx
    rw [dif_neg (show ¬(0 : Fin S1024x1024.rank) ∈ dot_S1024x1024_S1024x196_S1024x196_1_0_0_1_n_n.lhsBatch by decide), dif_pos (show (0 : Fin S1024x1024.rank) ∈ dot_S1024x1024_S1024x196_S1024x196_1_0_0_1_n_n.lhsNonContracting by decide)]
    rfl
  l1 := fun j q => dot_S1024x1024_S1024x196_S1024x196_1_0_0_1_n_n.lhsIdx_val_of_single rfl j q
  r0 := fun j q => dot_S1024x1024_S1024x196_S1024x196_1_0_0_1_n_n.rhsIdx_val_of_single rfl j q
  r1 := fun j q => by
    unfold DotDims.rhsIdx
    rw [dif_neg (show ¬(1 : Fin S1024x196.rank) ∈ dot_S1024x1024_S1024x196_S1024x196_1_0_0_1_n_n.rhsBatch by decide), dif_pos (show (1 : Fin S1024x196.rank) ∈ dot_S1024x1024_S1024x196_S1024x196_1_0_0_1_n_n.rhsNonContracting by decide)]
    rfl

/-- The dimension numbers of this product are those of a plain rows-by-inner times inner-by-columns product. -/
theorem plainVec : PlainDot dot_S1024x1024_S1024x1_S1024x1_1_0_0_1_n_n where
  rank := rfl
  size := rfl
  l0 := fun j q => by
    unfold DotDims.lhsIdx
    rw [dif_neg (show ¬(0 : Fin S1024x1024.rank) ∈ dot_S1024x1024_S1024x1_S1024x1_1_0_0_1_n_n.lhsBatch by decide), dif_pos (show (0 : Fin S1024x1024.rank) ∈ dot_S1024x1024_S1024x1_S1024x1_1_0_0_1_n_n.lhsNonContracting by decide)]
    rfl
  l1 := fun j q => dot_S1024x1024_S1024x1_S1024x1_1_0_0_1_n_n.lhsIdx_val_of_single rfl j q
  r0 := fun j q => dot_S1024x1024_S1024x1_S1024x1_1_0_0_1_n_n.rhsIdx_val_of_single rfl j q
  r1 := fun j q => by
    unfold DotDims.rhsIdx
    rw [dif_neg (show ¬(1 : Fin S1024x1.rank) ∈ dot_S1024x1024_S1024x1_S1024x1_1_0_0_1_n_n.rhsBatch by decide), dif_pos (show (1 : Fin S1024x1.rank) ∈ dot_S1024x1024_S1024x1_S1024x1_1_0_0_1_n_n.rhsNonContracting by decide)]
    rfl

/-- One image's projection at feature h and position s: tanh of row h of the weights against the image's channels at
    s, plus the bias of h. -/
theorem sampleA_apply (w : Vec Ideal S1024x2048 .bf16) (b : Vec Ideal S1024 .f32) (x : Vec Ideal S1x2048x196 .f32)
    (z : Fin 1) (h : Fin 1024) (s : Fin 196) :
    sampleA (F := Ideal) w b x (ix3 z h s)
      = Cert.Attn.proj (fun c s => x (ix3 (0 : Fin 1) c s)) (fun h c => w (ix2 h c)) (fun h => b (ix1 h)) h s := by
  unfold sampleA Cert.Attn.proj
  rw [shapeCast_ab_1ab_apply, truncf_apply]
  simp only [tanh, Ideal.tanh_def]
  rw [addf_apply]
  simp only [matmul]
  rw [matmul_zero_ix2_any plainProj, broadcastTo_a1_ab_apply, shapeCast_a_a1_apply]
  refine congrArg Ideal.tanh (congrArg (· + b (ix1 h)) (Finset.sum_congr rfl fun c _ => ?_))
  rw [shapeCast_self, truncf_apply, shapeCast_1ab_ab_apply]

/-- One round's score of position s by feature k. -/
theorem scoresB_apply (vi : FVec Ideal S1024x196 .bf16) (wv wu : FVec Ideal S1024x1024 .bf16) (bu : Vec Ideal S1024 .f32)
    (u : FVec Ideal S1024 .f32) (k : Fin 1024) (s : Fin 196) :
    scoresB (F := Ideal) vi wv wu bu u (ix2 k s)
      = Cert.Attn.score (fun h s => vi (ix2 h s)) (fun k h => wv (ix2 k h)) (fun k h => wu (ix2 k h)) (fun k => bu (ix1 k))
          (fun h => u (ix1 h)) k s := by
  unfold scoresB Cert.Attn.score
  simp only [tanh, Ideal.tanh_def]
  rw [addf_apply]
  simp only [matmul]
  rw [matmul_zero_ix2_any plainFeat, broadcastTo_a1_ab_apply, addf_apply, matmul_zero_ix2_any plainVec, shapeCast_a_a1_apply]
  refine congrArg Ideal.tanh (congrArg ((∑ h : Fin 1024, (wv (ix2 k h) : EReal) * (vi (ix2 h s) : EReal)) + ·)
    (congrArg (· + bu (ix1 k)) (Finset.sum_congr rfl fun h _ => ?_)))
  rw [shapeCast_a_a1_apply, truncf_apply]

/-- The unnormalised weight of position s in row k: exp of the score minus the row's largest score. -/
theorem weightsB_apply (ha : FVec Ideal S1024x196 .f32) (k : Fin 1024) (s : Fin 196) :
    weightsB (F := Ideal) ha (ix2 k s) = Cert.Attn.weight (fun s => ha (ix2 k s)) s := by
  unfold weightsB Cert.Attn.weight Cert.Attn.peak
  show Ideal.exp (ha (ix2 k s) - broadcastTo S1024x196
      (shapeCast S1024x1 (multiReduction .maximumf [1] S1024 ha 0xFF800000#32 reduces_S1024x196_S1024 (.inl rfl) rfl) shapeCasts_S1024_S1024x1)
      broadcasts_S1024x1_S1024x196 (ix2 k s)) = _
  refine congrArg (fun t => Ideal.exp (ha (ix2 k s) - t)) ?_
  exact (broadcastTo_a1_ab_apply _ _ k s).trans ((shapeCast_a_a1_apply _ _ k 0).trans
    (multiReduction_max_row ha 0xFF800000#32 reduces_S1024x196_S1024 (.inl rfl) rfl k))

/-- The growth of entry k: the row's sum of (weight / sum of the row's weights) times the feature. -/
theorem gainB_apply (vi : FVec Ideal S1024x196 .bf16) (e : FVec Ideal S1024x196 .f32) (k : Fin 1024) :
    gainB (F := Ideal) vi e (ix1 k)
      = ∑ s : Fin 196, Ideal.div (e (ix2 k s)) (∑ t : Fin 196, (e (ix2 k t) : EReal)) * (vi (ix2 k s) : EReal) := by
  unfold gainB
  refine (multiReduction_add_row _ 0x00000000#32 reduces_S1024x196_S1024 (.inl rfl) rfl k).trans ?_
  refine Finset.sum_congr rfl fun s _ => ?_
  show Ideal.div (e (ix2 k s)) (broadcastTo S1024x196
      (shapeCast S1024x1 (multiReduction .add [1] S1024 e 0x00000000#32 reduces_S1024x196_S1024 (.inl rfl) rfl) shapeCasts_S1024_S1024x1)
      broadcasts_S1024x1_S1024x196 (ix2 k s)) * (vi (ix2 k s) : EReal) = _
  refine congrArg (fun t => Ideal.div (e (ix2 k s)) t * (vi (ix2 k s) : EReal)) ?_
  exact (broadcastTo_a1_ab_apply _ _ k s).trans ((shapeCast_a_a1_apply _ _ k 0).trans
    (multiReduction_add_row e 0x00000000#32 reduces_S1024x196_S1024 (.inl rfl) rfl k))

/-- One round at entry k is the spec's round on the arrays read by coordinates. -/
theorem roundB_apply (vi : FVec Ideal S1024x196 .bf16) (wv wu : FVec Ideal S1024x1024 .bf16) (bu : Vec Ideal S1024 .f32)
    (u : FVec Ideal S1024 .f32) (k : Fin 1024) :
    roundB (F := Ideal) vi wv wu bu u (ix1 k)
      = Cert.Attn.step (fun h s => vi (ix2 h s)) (fun k h => wv (ix2 k h)) (fun k h => wu (ix2 k h)) (fun k => bu (ix1 k))
          (fun h => u (ix1 h)) k := by
  have hs : (fun s => scoresB (F := Ideal) vi wv wu bu u (ix2 k s))
      = Cert.Attn.score (fun h s => vi (ix2 h s)) (fun k h => wv (ix2 k h)) (fun k h => wu (ix2 k h)) (fun k => bu (ix1 k))
          (fun h => u (ix1 h)) k := funext fun s => scoresB_apply vi wv wu bu u k s
  unfold roundB Cert.Attn.step
  rw [addf_apply, gainB_apply]
  simp only [weightsB_apply, hs]

/-- One image through both rounds, at entry k, from its slices read by coordinates. -/
theorem sampleB_apply (vi : Vec Ideal S1x1024x196 .bf16) (u : Vec Ideal S1x1024 .f32) (w0 u0 : Vec Ideal S1024x1024 .bf16)
    (b0 : Vec Ideal S1024 .f32) (w1 u1 : Vec Ideal S1024x1024 .bf16) (b1 : Vec Ideal S1024 .f32) (z : Fin 1) (k : Fin 1024) :
    sampleB (F := Ideal) vi u w0 u0 b0 w1 u1 b1 (ix2 z k)
      = Cert.Attn.twice (fun h s => vi (ix3 (0 : Fin 1) h s)) (fun k h => w0 (ix2 k h)) (fun k h => u0 (ix2 k h)) (fun k => b0 (ix1 k))
          (fun k h => w1 (ix2 k h)) (fun k h => u1 (ix2 k h)) (fun k => b1 (ix1 k)) (fun h => u (ix2 (0 : Fin 1) h)) k := by
  unfold sampleB Cert.Attn.twice
  rw [shapeCast_a_1a_apply, roundB_apply]
  have hvi : (fun h s => shapeCast S1024x196 vi shapeCasts_S1x1024x196_S1024x196 (ix2 h s)) = fun h s => vi (ix3 (0 : Fin 1) h s) :=
    funext fun h => funext fun s => shapeCast_1ab_ab_apply vi _ h s
  have hin : (fun h => roundB (F := Ideal) (shapeCast S1024x196 vi shapeCasts_S1x1024x196_S1024x196)
        (shapeCast S1024x1024 w0 shapeCasts_S1024x1024_S1024x1024) (shapeCast S1024x1024 u0 shapeCasts_S1024x1024_S1024x1024) b0
        (shapeCast S1024 u shapeCasts_S1x1024_S1024) (ix1 h))
      = Cert.Attn.step (fun h s => vi (ix3 (0 : Fin 1) h s)) (fun k h => w0 (ix2 k h)) (fun k h => u0 (ix2 k h)) (fun k => b0 (ix1 k))
          (fun h => u (ix2 (0 : Fin 1) h)) := by
    funext h
    rw [roundB_apply, hvi]
    simp only [shapeCast_self, shapeCast_1a_a_apply]
  rw [hin, hvi]
  simp only [shapeCast_self]

end Cert.KernelIdeal.OpsVal

end
-- ==== Proof.LibSliceLayout.lean ====
/-
  Two readings at an index given by coordinates, for the pieces a body cuts out of a staged block.

  A load through a unit-stride slice reads the contents at offset + local coordinate on every axis; and a [1, 1, n]
  piece recast as a [n] vector reads the piece's entry (0, 0, i) at i.
-/
import Idealize.ShloMosaic.Lib.Pipeline.Value
import Idealize.ShloMosaic.Lib.ValueIdx

namespace Idealize.ShloMosaic.ValueIdx

open Idealize.ShloMosaic

/-- A load through a unit-stride slice reads the contents at offset + local coordinate, axis by axis. -/
theorem ld_unit_apply {Val : EltTy → Type} {el : EltTy} {s : Shape} (X : s.Idx → Val el) (off size : Fin s.rank → ℕ) (inb : ∀ a, off a + size a ≤ s.size a)
    (y : (Rect.unit off size inb).shape.Idx) (i : s.Idx) (h : ∀ a, (i a).val = off a + (y a).val) :
    View.ld X (Rect.unit off size inb) y = X i :=
  congrArg X (funext fun a => Fin.ext (by rw [h a]; show off a + 1 * (y a).val = _; rw [Nat.one_mul]))

/-- A [1, 1, n] piece recast as a [n] vector reads, at i, the piece's entry (0, 0, i). -/
theorem shapeCast_11n_n_apply {α : Type} {n : ℕ} (x : (⟨3, ![1, 1, n]⟩ : Shape).Idx → α) (h : (⟨3, ![1, 1, n]⟩ : Shape).ShapeCasts ⟨1, ![n]⟩)
    (u u' : Fin 1) (i : Fin n) : shapeCast ⟨1, ![n]⟩ x h (ix1 i) = x (ix3 u u' i) :=
  shapeCast_apply x h _ _ (by
    have hu : u.val = 0 := by omega
    have hu' : u'.val = 0 := by omega
    rw [Shape.rowMajor_val_three, Shape.rowMajor_val_one]
    show (u.val * 1 + u'.val) * n + i.val = i.val
    simp [hu, hu'])

end Idealize.ShloMosaic.ValueIdx
-- ==== Proof.Blocks0.lean ====
/-
  The projection region: from the blocks a grid point writes back to the whole array of projected features.

  Grid point t of 32 stages images 4t .. 4t+3 of the [128, 2048, 196] input (the weights and the bias whole) and
  writes back the [4, 1024, 196] block of their projected features. So entry (b, h, s) of the [128, 1024, 196] result
  is `Cert.Attn.proj` of image b's channels-by-positions slice at (h, s): the point that covers image b is b / 4.
-/
import proofs.«168603_j28587302323079_2_alg».proof.Proof.Gen.KernelIdeal.Frame
import proofs.«168603_j28587302323079_2_alg».proof.Proof.Pieces
import proofs.«168603_j28587302323079_2_alg».proof.Proof.KernelVal
import proofs.«168603_j28587302323079_2_alg».proof.Proof.LibSliceLayout
import Idealize.ShloMosaic.Lib.Pipeline.Value

set_option synthInstance.maxSize 4096
set_option maxRecDepth 16384

noncomputable section

open scoped BigOperators

namespace Cert.KernelIdeal.Blocks0

open Idealize.ShloMosaic Idealize.ShloMosaic.TcCoe Idealize.ShloMosaic.ValueIdx Idealize.SL.Sem
open Cert.KernelIdeal Cert.KernelIdeal.Gen Cert.KernelIdeal.Ops Cert.KernelIdeal.OpsVal Cert.KernelIdeal.Pieces
open Idealize.ShloMosaic.Pipeline (Dat)

/-- The projected features as one function of the whole input array X, the weights W and the bias B. -/
def G0 (X : S128x2048x196.Idx → Elt Ideal .f32) (W : S1024x2048.Idx → Elt Ideal .bf16) (B : S1024.Idx → Elt Ideal .f32) :
    S128x1024x196.Idx → Elt Ideal .bf16 :=
  fun i => Cert.Attn.proj (fun c s => X (ix3 (i 0) c s)) (fun h c => W (ix2 h c)) (fun h => B (ix1 h)) (i 1) (i 2)

theorem hz1 : (![0] : Fin 1 → Nat) = fun _ => 0 := funext fun a => by fin_cases a; rfl
theorem hz2 : (![0, 0] : Fin 2 → Nat) = fun _ => 0 := funext fun a => by fin_cases a <;> rfl

/-- Image j's stored piece, at its local index (z, h, s), is the projection of image j's slice of the staged input at
    (h, s). -/
theorem piece_at (j : ℕ) (hj : j < 4)
    (inbI : ∀ a, (![j, 0, 0] : Fin 3 → ℕ) a + S1x2048x196.size a ≤ S4x2048x196.size a)
    (x0 : Vec Ideal S4x2048x196 .f32) (x1 : Vec Ideal S1024x2048 .bf16) (x2 : Vec Ideal S1024 .f32)
    (z : Fin 1) (h : Fin 1024) (s : Fin 196) :
    sampleA (F := Ideal) (View.ld x1 r0_0) (View.ld x2 r0_1) (View.ld x0 (Rect.unit (s := S4x2048x196) ![j, 0, 0] S1x2048x196.size inbI)) (ix3 z h s)
      = Cert.Attn.proj (fun c s => x0 (ix3 (⟨j, hj⟩ : Fin 4) c s)) (fun h c => x1 (ix2 h c)) (fun h => x2 (ix1 h)) h s := by
  rw [sampleA_apply, View.ld_unit_zero (S := S1024x2048) hz2, View.ld_unit_zero (S := S1024) hz1]
  have e : (fun (c : Fin 2048) (s : Fin 196) => View.ld x0 (Rect.unit (s := S4x2048x196) ![j, 0, 0] S1x2048x196.size inbI) (ix3 (0 : Fin 1) c s))
      = fun c s => x0 (ix3 (⟨j, hj⟩ : Fin 4) c s) :=
    funext fun c => funext fun s => ld_unit_apply x0 _ _ inbI (ix3 (0 : Fin 1) c s) (ix3 (⟨j, hj⟩ : Fin 4) c s) (fun a => by
      match a with
      | ⟨0, _⟩ => rfl
      | ⟨1, _⟩ => exact (Nat.zero_add _).symm
      | ⟨2, _⟩ => exact (Nat.zero_add _).symm)
  rw [e]

/-- The position of image j's local index (z, h, s) inside the staged [4, 1024, 196] block. -/
theorem emb_at (j : ℕ) (hj : j < 4)
    (inbO : ∀ a, (![j, 0, 0] : Fin 3 → ℕ) a + S1x1024x196.size a ≤ S4x1024x196.size a) (z : Fin 1) (h : Fin 1024) (s : Fin 196) :
    (Rect.unit (s := S4x1024x196) ![j, 0, 0] S1x1024x196.size inbO).emb (ix3 z h s) = ix3 (⟨j, hj⟩ : Fin 4) h s :=
  funext fun a => Fin.ext (by
    have hz : z.val = 0 := by omega
    match a with
    | ⟨0, _⟩ => show j + 1 * z.val = j; omega
    | ⟨1, _⟩ => show 0 + 1 * h.val = h.val; omega
    | ⟨2, _⟩ => show 0 + 1 * s.val = s.val; omega)

/-- What a grid point's body leaves in the output block, as one function of its staged blocks: entry (j, h, s) is the
    projection of staged image j at (h, s). -/
theorem out0_3_eq (x0 : Vec Ideal S4x2048x196 .f32) (x1 : Vec Ideal S1024x2048 .bf16) (x2 : Vec Ideal S1024 .f32) (y : S4x1024x196.Idx) :
    (out0_3 (F := Ideal) x0 x1 x2 y : EReal)
      = Cert.Attn.proj (fun c s => x0 (ix3 (y 0) c s)) (fun h c => x1 (ix2 h c)) (fun h => x2 (ix1 h)) (y 1) (y 2) := by
  unfold out0_3
  refine View.canon_apply_of_pieces (Val := Elt Ideal) (S := S4x1024x196) (e := .bf16)
    (fun y : S4x1024x196.Idx => Cert.Attn.proj (fun c s => x0 (ix3 (y 0) c s)) (fun h c => x1 (ix2 h c)) (fun h => x2 (ix1 h)) (y 1) (y 2))
    _ ?_ y (cover0_3 _ _ _ _ y)
  intro p hp
  simp only [List.mem_cons, List.not_mem_nil, or_false] at hp
  rcases hp with rfl | rfl | rfl | rfl
  · intro x
    obtain ⟨z, h, s, rfl⟩ : ∃ (z : Fin 1) (h : Fin 1024) (s : Fin 196), x = ix3 z h s := ⟨x 0, x 1, x 2, eq_ix3 x⟩
    exact (congrFun (pieceA_3 x0 x1 x2) _).trans ((piece_at 3 (by omega) _ x0 x1 x2 z h s).trans
      (by rw [show r0_9.emb (ix3 z h s) = ix3 (⟨3, by omega⟩ : Fin 4) h s from emb_at 3 (by omega) _ z h s]))
  · intro x
    obtain ⟨z, h, s, rfl⟩ : ∃ (z : Fin 1) (h : Fin 1024) (s : Fin 196), x = ix3 z h s := ⟨x 0, x 1, x 2, eq_ix3 x⟩
    exact (congrFun (pieceA_2 x0 x1 x2) _).trans ((piece_at 2 (by omega) _ x0 x1 x2 z h s).trans
      (by rw [show r0_7.emb (ix3 z h s) = ix3 (⟨2, by omega⟩ : Fin 4) h s from emb_at 2 (by omega) _ z h s]))
  · intro x
    obtain ⟨z, h, s, rfl⟩ : ∃ (z : Fin 1) (h : Fin 1024) (s : Fin 196), x = ix3 z h s := ⟨x 0, x 1, x 2, eq_ix3 x⟩
    exact (congrFun (pieceA_1 x0 x1 x2) _).trans ((piece_at 1 (by omega) _ x0 x1 x2 z h s).trans
      (by rw [show r0_5.emb (ix3 z h s) = ix3 (⟨1, by omega⟩ : Fin 4) h s from emb_at 1 (by omega) _ z h s]))
  · intro x
    obtain ⟨z, h, s, rfl⟩ : ∃ (z : Fin 1) (h : Fin 1024) (s : Fin 196), x = ix3 z h s := ⟨x 0, x 1, x 2, eq_ix3 x⟩
    exact (congrFun (pieceA_0 x0 x1 x2) _).trans ((piece_at 0 (by omega) _ x0 x1 x2 z h s).trans
      (by rw [show r0_3.emb (ix3 z h s) = ix3 (⟨0, by omega⟩ : Fin 4) h s from emb_at 0 (by omega) _ z h s]))

/-! ## From what a point writes back to the whole array -/

variable (V : (c : Dev nD) → (b : Ref sig .tc) → Buf (Elt Ideal) ((c : Thread nD τ).loc b))

/-- The index maps over the 32 grid points: the input and the output blocks move along the image axis with the point,
    and the weights and the bias are one block. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 3) = t.val ∧ win0_3.index t (1 : Fin 3) = 0 ∧ win0_3.index t (2 : Fin 3) = 0 :=
  (by decide +kernel : ∀ t : Fin grid0.N, _)

/-- What point t writes back is block t of `G0` of the arrays as the region finds them. -/
theorem flushed (c : Dev nD) (t : Fin cfg0.N) :
    (dat0 V c).flushed 3 t = ((cfg0.win 3).blk t).view.read (Elt Ideal) (G0 (V c main_v0) (V c main_v1) (V c main_arg3)) := by
  show (cfg0.win 3).cut (grid0.coords t) ((dat0 V c).after 3 t) = _
  rw [after0_3]
  obtain ⟨e00, e01, e02, e10, e11, e20, e30, e31, e32⟩ := idx_facts t
  funext y
  show (out0_3 (iblk0 V c 0 t) (iblk0 V c 1 t) (iblk0 V c 2 t) y : EReal)
    = G0 (V c main_v0) (V c main_v1) (V c main_arg3) (((cfg0.win 3).blk t).view.emb y)
  rw [out0_3_eq]
  unfold G0
  have f0 : (fun (ch : Fin 2048) (s : Fin 196) => (iblk0 V c 0 t (ix3 (y 0) ch s) : EReal))
      = fun ch s => V c main_v0 (ix3 ((((cfg0.win 3).blk t).view.emb y) 0) ch s) := by
    funext ch s
    show V c main_v0 (((cfg0.win 0).blk t).view.emb (ix3 (y 0) ch s)) = _
    refine congrArg (V c main_v0) (funext fun a => Fin.ext ?_)
    match a with
    | ⟨0, _⟩ => show win0_0.index t (0 : Fin 3) * 4 + 1 * (y 0).val = win0_3.index t (0 : Fin 3) * 4 + 1 * (y 0).val; omega
    | ⟨1, _⟩ => show win0_0.index t (1 : Fin 3) * 2048 + 1 * ch.val = ch.val; omega
    | ⟨2, _⟩ => show win0_0.index t (2 : Fin 3) * 196 + 1 * s.val = s.val; omega
  have f1 : (fun (h : Fin 1024) (ch : Fin 2048) => (iblk0 V c 1 t (ix2 h ch) : EReal)) = fun h ch => V c main_v1 (ix2 h ch) := by
    funext h ch
    show V c main_v1 (((cfg0.win 1).blk t).view.emb (ix2 h ch)) = _
    refine congrArg (V c main_v1) (funext fun a => Fin.ext ?_)
    match a with
    | ⟨0, _⟩ => show win0_1.index t (0 : Fin 2) * 1024 + 1 * h.val = h.val; omega
    | ⟨1, _⟩ => show win0_1.index t (1 : Fin 2) * 2048 + 1 * ch.val = ch.val; omega
  have f2 : (fun (h : Fin 1024) => (iblk0 V c 2 t (ix1 h) : EReal)) = fun h => V c main_arg3 (ix1 h) := by
    funext h
    show V c main_arg3 (((cfg0.win 2).blk t).view.emb (ix1 h)) = _
    refine congrArg (V c main_arg3) (funext fun a => Fin.ext ?_)
    match a with
    | ⟨0, _⟩ => show win0_2.index t (0 : Fin 1) * 1024 + 1 * h.val = h.val; omega
  have f3 : (y 1 : Fin 1024) = (((cfg0.win 3).blk t).view.emb y) 1 :=
    Fin.ext (by show (y 1).val = win0_3.index t (1 : Fin 3) * 1024 + 1 * (y 1).val; omega)
  have f4 : (y 2 : Fin 196) = (((cfg0.win 3).blk t).view.emb y) 2 :=
    Fin.ext (by show (y 2).val = win0_3.index t (2 : Fin 3) * 196 + 1 * (y 2).val; omega)
  rw [f0, f1, f2, ← f3, ← f4]

/-- An index of the array is in point t's block iff each coordinate is in the block's range on its axis. -/
theorem mem_blk (t : Fin cfg0.N) (i : S128x1024x196.Idx) :
    i ∈ ((cfg0.win 3).blk t).view.set ↔ ∀ a : Fin 3, win0_3.index t a * S4x1024x196.size a ≤ (i a).val
      ∧ (i a).val < win0_3.index t a * S4x1024x196.size a + S4x1024x196.size a := by
  show i ∈ ((View.whole main_v6).slice (win0_3.rect t)).set ↔ _
  rw [View.set_slice_whole, Rect.mem_set_unit]
  exact Iff.rfl

/-- Every index is in some point's block: image b lies in the block of point b / 4. -/
theorem cover (i : S128x1024x196.Idx) : ∃ t : Fin cfg0.N, (cfg0.win 3).flush t = true ∧ i ∈ ((cfg0.win 3).blk t).view.set := by
  have hi0 : (i 0).val < 128 := (i 0).isLt
  have hi1 : (i 1).val < 1024 := (i 1).isLt
  have hi2 : (i 2).val < 196 := (i 2).isLt
  have hN : grid0.N = 32 := N_0
  have hlt : (i 0).val / 4 < cfg0.N := by show (i 0).val / 4 < grid0.N; rw [hN]; omega
  obtain ⟨-, -, -, -, -, -, e30, e31, e32⟩ := idx_facts ⟨(i 0).val / 4, hlt⟩
  have e30' : win0_3.index ⟨(i 0).val / 4, hlt⟩ (0 : Fin 3) = (i 0).val / 4 := e30
  refine ⟨⟨(i 0).val / 4, hlt⟩, flush0_3 _, ?_⟩
  rw [mem_blk]
  intro a
  match a with
  | ⟨0, _⟩ => show win0_3.index ⟨(i 0).val / 4, hlt⟩ (0 : Fin 3) * 4 ≤ (i 0).val ∧ (i 0).val < win0_3.index ⟨(i 0).val / 4, hlt⟩ (0 : Fin 3) * 4 + 4; omega
  | ⟨1, _⟩ => show win0_3.index ⟨(i 0).val / 4, hlt⟩ (1 : Fin 3) * 1024 ≤ (i 1).val ∧ (i 1).val < win0_3.index ⟨(i 0).val / 4, hlt⟩ (1 : Fin 3) * 1024 + 1024; omega
  | ⟨2, _⟩ => show win0_3.index ⟨(i 0).val / 4, hlt⟩ (2 : Fin 3) * 196 ≤ (i 2).val ∧ (i 2).val < win0_3.index ⟨(i 0).val / 4, hlt⟩ (2 : Fin 3) * 196 + 196; omega

/-- The array of projected features after the region: `G0` of the arrays as the region finds them. -/
theorem final (c : Dev nD) : (dat0 V c).arrAt 3 cfg0.N = G0 (V c main_v0) (V c main_v1) (V c main_arg3) :=
  (dat0 V c).arrAt_eq_of_cover 3 _ (fun t _ => flushed V c t) cover

end Cert.KernelIdeal.Blocks0

end
-- ==== Proof.Blocks1.lean ====
/-
  The attention region: from the blocks a grid point writes back to the whole array of question vectors.

  Grid point t of 8 stages images 16t .. 16t+15 of the [128, 1024, 196] features and of the [128, 1024] starting
  vectors (the six parameter arrays whole) and writes back the [16, 1024] block of their final vectors. So entry
  (b, k) of the [128, 1024] result is `Cert.Attn.twice` of image b's features and starting vector at k: the point
  that covers image b is b / 16.
-/
import proofs.«168603_j28587302323079_2_alg».proof.Proof.Gen.KernelIdeal.Frame
import proofs.«168603_j28587302323079_2_alg».proof.Proof.Pieces
import proofs.«168603_j28587302323079_2_alg».proof.Proof.KernelVal
import proofs.«168603_j28587302323079_2_alg».proof.Proof.LibSliceLayout
import Idealize.ShloMosaic.Lib.Pipeline.Value

set_option synthInstance.maxSize 4096
set_option maxRecDepth 16384

noncomputable section

open scoped BigOperators

namespace Cert.KernelIdeal.Blocks1

open Idealize.ShloMosaic Idealize.ShloMosaic.TcCoe Idealize.ShloMosaic.ValueIdx Idealize.SL.Sem
open Cert.KernelIdeal Cert.KernelIdeal.Gen Cert.KernelIdeal.Ops Cert.KernelIdeal.OpsVal Cert.KernelIdeal.Pieces
open Idealize.ShloMosaic.Pipeline (Dat)

/-- The final question vectors as one function of the whole feature array VI, the starting vectors U and the six
    parameter arrays. -/
def G1 (VI : S128x1024x196.Idx → Elt Ideal .bf16) (U : S128x1024.Idx → Elt Ideal .f32)
    (W0 U0 : S1024x1024.Idx → Elt Ideal .bf16) (B0 : S1024.Idx → Elt Ideal .f32)
    (W1 U1 : S1024x1024.Idx → Elt Ideal .bf16) (B1 : S1024.Idx → Elt Ideal .f32) : S128x1024.Idx → Elt Ideal .f32 :=
  fun i => Cert.Attn.twice (fun h s => VI (ix3 (i 0) h s)) (fun k h => W0 (ix2 k h)) (fun k h => U0 (ix2 k h)) (fun k => B0 (ix1 k))
    (fun k h => W1 (ix2 k h)) (fun k h => U1 (ix2 k h)) (fun k => B1 (ix1 k)) (fun h => U (ix2 (i 0) h)) (i 1)

theorem hz1 : (![0] : Fin 1 → Nat) = fun _ => 0 := funext fun a => by fin_cases a; rfl
theorem hz2 : (![0, 0] : Fin 2 → Nat) = fun _ => 0 := funext fun a => by fin_cases a <;> rfl

/-- Image j's stored piece, at its local index (z, k), is the two rounds on image j's slices of the staged features and
    starting vectors, at k. -/
theorem piece_at (j : ℕ) (hj : j < 16)
    (inb3 : ∀ a, (![j, 0, 0] : Fin 3 → ℕ) a + S1x1024x196.size a ≤ S16x1024x196.size a)
    (inb2 : ∀ a, (![j, 0] : Fin 2 → ℕ) a + S1x1024.size a ≤ S16x1024.size a)
    (x0 : Vec Ideal S16x1024x196 .bf16) (x1 : Vec Ideal S16x1024 .f32) (x2 x3 : Vec Ideal S1024x1024 .bf16) (x4 : Vec Ideal S1024 .f32)
    (x5 x6 : Vec Ideal S1024x1024 .bf16) (x7 : Vec Ideal S1024 .f32) (z : Fin 1) (k : Fin 1024) :
    sampleB (F := Ideal) (View.ld x0 (Rect.unit (s := S16x1024x196) ![j, 0, 0] S1x1024x196.size inb3))
        (View.ld x1 (Rect.unit (s := S16x1024) ![j, 0] S1x1024.size inb2))
        (View.ld x2 r1_0) (View.ld x3 r1_0) (View.ld x4 r1_1) (View.ld x5 r1_0) (View.ld x6 r1_0) (View.ld x7 r1_1) (ix2 z k)
      = Cert.Attn.twice (fun h s => x0 (ix3 (⟨j, hj⟩ : Fin 16) h s)) (fun k h => x2 (ix2 k h)) (fun k h => x3 (ix2 k h)) (fun k => x4 (ix1 k))
        (fun k h => x5 (ix2 k h)) (fun k h => x6 (ix2 k h)) (fun k => x7 (ix1 k)) (fun h => x1 (ix2 (⟨j, hj⟩ : Fin 16) h)) k := by
  rw [sampleB_apply]
  rw [View.ld_unit_zero (S := S1024x1024) hz2 _ x2, View.ld_unit_zero (S := S1024x1024) hz2 _ x3,
    View.ld_unit_zero (S := S1024x1024) hz2 _ x5, View.ld_unit_zero (S := S1024x1024) hz2 _ x6,
    View.ld_unit_zero (S := S1024) hz1 _ x4, View.ld_unit_zero (S := S1024) hz1 _ x7]
  have e0 : (fun (h : Fin 1024) (s : Fin 196) => View.ld x0 (Rect.unit (s := S16x1024x196) ![j, 0, 0] S1x1024x196.size inb3) (ix3 (0 : Fin 1) h s))
      = fun h s => x0 (ix3 (⟨j, hj⟩ : Fin 16) h s) :=
    funext fun h => funext fun s => ld_unit_apply x0 _ _ inb3 (ix3 (0 : Fin 1) h s) (ix3 (⟨j, hj⟩ : Fin 16) h s) (fun a => by
      match a with
      | ⟨0, _⟩ => rfl
      | ⟨1, _⟩ => exact (Nat.zero_add _).symm
      | ⟨2, _⟩ => exact (Nat.zero_add _).symm)
  have e1 : (fun (h : Fin 1024) => View.ld x1 (Rect.unit (s := S16x1024) ![j, 0] S1x1024.size inb2) (ix2 (0 : Fin 1) h))
      = fun h => x1 (ix2 (⟨j, hj⟩ : Fin 16) h) :=
    funext fun h => ld_unit_apply x1 _ _ inb2 (ix2 (0 : Fin 1) h) (ix2 (⟨j, hj⟩ : Fin 16) h) (fun a => by
      match a with
      | ⟨0, _⟩ => rfl
      | ⟨1, _⟩ => exact (Nat.zero_add _).symm)
  rw [e0, e1]

/-- The position of image j's local index (z, k) inside the staged [16, 1024] block. -/
theorem emb_at (j : ℕ) (hj : j < 16)
    (inb2 : ∀ a, (![j, 0] : Fin 2 → ℕ) a + S1x1024.size a ≤ S16x1024.size a) (z : Fin 1) (k : Fin 1024) :
    (Rect.unit (s := S16x1024) ![j, 0] S1x1024.size inb2).emb (ix2 z k) = ix2 (⟨j, hj⟩ : Fin 16) k :=
  funext fun a => Fin.ext (by
    have hz : z.val = 0 := by omega
    match a with
    | ⟨0, _⟩ => show j + 1 * z.val = j; omega
    | ⟨1, _⟩ => show 0 + 1 * k.val = k.val; omega)

/-- What a grid point's body leaves in the output block, as one function of its staged blocks: entry (j, k) is the two
    rounds on staged image j, at k. -/
theorem out1_8_eq (x0 : Vec Ideal S16x1024x196 .bf16) (x1 : Vec Ideal S16x1024 .f32) (x2 x3 : Vec Ideal S1024x1024 .bf16) (x4 : Vec Ideal S1024 .f32)
    (x5 x6 : Vec Ideal S1024x1024 .bf16) (x7 : Vec Ideal S1024 .f32) (y : S16x1024.Idx) :
    (out1_8 (F := Ideal) x0 x1 x2 x3 x4 x5 x6 x7 y : EReal)
      = Cert.Attn.twice (fun h s => x0 (ix3 (y 0) h s)) (fun k h => x2 (ix2 k h)) (fun k h => x3 (ix2 k h)) (fun k => x4 (ix1 k))
        (fun k h => x5 (ix2 k h)) (fun k h => x6 (ix2 k h)) (fun k => x7 (ix1 k)) (fun h => x1 (ix2 (y 0) h)) (y 1) := by
  unfold out1_8
  refine View.canon_apply_of_pieces (Val := Elt Ideal) (S := S16x1024) (e := .f32)
    (fun y : S16x1024.Idx => Cert.Attn.twice (fun h s => x0 (ix3 (y 0) h s)) (fun k h => x2 (ix2 k h)) (fun k h => x3 (ix2 k h)) (fun k => x4 (ix1 k))
        (fun k h => x5 (ix2 k h)) (fun k h => x6 (ix2 k h)) (fun k => x7 (ix1 k)) (fun h => x1 (ix2 (y 0) h)) (y 1))
    _ ?_ y (cover1_8 _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl
  · intro x
    obtain ⟨z, k, rfl⟩ : ∃ (z : Fin 1) (k : Fin 1024), x = ix2 z k := ⟨x 0, x 1, eq_ix2 x⟩
    exact (congrFun (pieceB_15 x0 x1 x2 x3 x4 x5 x6 x7) _).trans ((piece_at 15 (by omega) _ _ x0 x1 x2 x3 x4 x5 x6 x7 z k).trans
      (by rw [show r1_32.emb (ix2 z k) = ix2 (⟨15, by omega⟩ : Fin 16) k from emb_at 15 (by omega) _ z k]))
  · intro x
    obtain ⟨z, k, rfl⟩ : ∃ (z : Fin 1) (k : Fin 1024), x = ix2 z k := ⟨x 0, x 1, eq_ix2 x⟩
    exact (congrFun (pieceB_14 x0 x1 x2 x3 x4 x5 x6 x7) _).trans ((piece_at 14 (by omega) _ _ x0 x1 x2 x3 x4 x5 x6 x7 z k).trans
      (by rw [show r1_30.emb (ix2 z k) = ix2 (⟨14, by omega⟩ : Fin 16) k from emb_at 14 (by omega) _ z k]))
  · intro x
    obtain ⟨z, k, rfl⟩ : ∃ (z : Fin 1) (k : Fin 1024), x = ix2 z k := ⟨x 0, x 1, eq_ix2 x⟩
    exact (congrFun (pieceB_13 x0 x1 x2 x3 x4 x5 x6 x7) _).trans ((piece_at 13 (by omega) _ _ x0 x1 x2 x3 x4 x5 x6 x7 z k).trans
      (by rw [show r1_28.emb (ix2 z k) = ix2 (⟨13, by omega⟩ : Fin 16) k from emb_at 13 (by omega) _ z k]))
  · intro x
    obtain ⟨z, k, rfl⟩ : ∃ (z : Fin 1) (k : Fin 1024), x = ix2 z k := ⟨x 0, x 1, eq_ix2 x⟩
    exact (congrFun (pieceB_12 x0 x1 x2 x3 x4 x5 x6 x7) _).trans ((piece_at 12 (by omega) _ _ x0 x1 x2 x3 x4 x5 x6 x7 z k).trans
      (by rw [show r1_26.emb (ix2 z k) = ix2 (⟨12, by omega⟩ : Fin 16) k from emb_at 12 (by omega) _ z k]))
  · intro x
    obtain ⟨z, k, rfl⟩ : ∃ (z : Fin 1) (k : Fin 1024), x = ix2 z k := ⟨x 0, x 1, eq_ix2 x⟩
    exact (congrFun (pieceB_11 x0 x1 x2 x3 x4 x5 x6 x7) _).trans ((piece_at 11 (by omega) _ _ x0 x1 x2 x3 x4 x5 x6 x7 z k).trans
      (by rw [show r1_24.emb (ix2 z k) = ix2 (⟨11, by omega⟩ : Fin 16) k from emb_at 11 (by omega) _ z k]))
  · intro x
    obtain ⟨z, k, rfl⟩ : ∃ (z : Fin 1) (k : Fin 1024), x = ix2 z k := ⟨x 0, x 1, eq_ix2 x⟩
    exact (congrFun (pieceB_10 x0 x1 x2 x3 x4 x5 x6 x7) _).trans ((piece_at 10 (by omega) _ _ x0 x1 x2 x3 x4 x5 x6 x7 z k).trans
      (by rw [show r1_22.emb (ix2 z k) = ix2 (⟨10, by omega⟩ : Fin 16) k from emb_at 10 (by omega) _ z k]))
  · intro x
    obtain ⟨z, k, rfl⟩ : ∃ (z : Fin 1) (k : Fin 1024), x = ix2 z k := ⟨x 0, x 1, eq_ix2 x⟩
    exact (congrFun (pieceB_9 x0 x1 x2 x3 x4 x5 x6 x7) _).trans ((piece_at 9 (by omega) _ _ x0 x1 x2 x3 x4 x5 x6 x7 z k).trans
      (by rw [show r1_20.emb (ix2 z k) = ix2 (⟨9, by omega⟩ : Fin 16) k from emb_at 9 (by omega) _ z k]))
  · intro x
    obtain ⟨z, k, rfl⟩ : ∃ (z : Fin 1) (k : Fin 1024), x = ix2 z k := ⟨x 0, x 1, eq_ix2 x⟩
    exact (congrFun (pieceB_8 x0 x1 x2 x3 x4 x5 x6 x7) _).trans ((piece_at 8 (by omega) _ _ x0 x1 x2 x3 x4 x5 x6 x7 z k).trans
      (by rw [show r1_18.emb (ix2 z k) = ix2 (⟨8, by omega⟩ : Fin 16) k from emb_at 8 (by omega) _ z k]))
  · intro x
    obtain ⟨z, k, rfl⟩ : ∃ (z : Fin 1) (k : Fin 1024), x = ix2 z k := ⟨x 0, x 1, eq_ix2 x⟩
    exact (congrFun (pieceB_7 x0 x1 x2 x3 x4 x5 x6 x7) _).trans ((piece_at 7 (by omega) _ _ x0 x1 x2 x3 x4 x5 x6 x7 z k).trans
      (by rw [show r1_16.emb (ix2 z k) = ix2 (⟨7, by omega⟩ : Fin 16) k from emb_at 7 (by omega) _ z k]))
  · intro x
    obtain ⟨z, k, rfl⟩ : ∃ (z : Fin 1) (k : Fin 1024), x = ix2 z k := ⟨x 0, x 1, eq_ix2 x⟩
    exact (congrFun (pieceB_6 x0 x1 x2 x3 x4 x5 x6 x7) _).trans ((piece_at 6 (by omega) _ _ x0 x1 x2 x3 x4 x5 x6 x7 z k).trans
      (by rw [show r1_14.emb (ix2 z k) = ix2 (⟨6, by omega⟩ : Fin 16) k from emb_at 6 (by omega) _ z k]))
  · intro x
    obtain ⟨z, k, rfl⟩ : ∃ (z : Fin 1) (k : Fin 1024), x = ix2 z k := ⟨x 0, x 1, eq_ix2 x⟩
    exact (congrFun (pieceB_5 x0 x1 x2 x3 x4 x5 x6 x7) _).trans ((piece_at 5 (by omega) _ _ x0 x1 x2 x3 x4 x5 x6 x7 z k).trans
      (by rw [show r1_12.emb (ix2 z k) = ix2 (⟨5, by omega⟩ : Fin 16) k from emb_at 5 (by omega) _ z k]))
  · intro x
    obtain ⟨z, k, rfl⟩ : ∃ (z : Fin 1) (k : Fin 1024), x = ix2 z k := ⟨x 0, x 1, eq_ix2 x⟩
    exact (congrFun (pieceB_4 x0 x1 x2 x3 x4 x5 x6 x7) _).trans ((piece_at 4 (by omega) _ _ x0 x1 x2 x3 x4 x5 x6 x7 z k).trans
      (by rw [show r1_10.emb (ix2 z k) = ix2 (⟨4, by omega⟩ : Fin 16) k from emb_at 4 (by omega) _ z k]))
  · intro x
    obtain ⟨z, k, rfl⟩ : ∃ (z : Fin 1) (k : Fin 1024), x = ix2 z k := ⟨x 0, x 1, eq_ix2 x⟩
    exact (congrFun (pieceB_3 x0 x1 x2 x3 x4 x5 x6 x7) _).trans ((piece_at 3 (by omega) _ _ x0 x1 x2 x3 x4 x5 x6 x7 z k).trans
      (by rw [show r1_8.emb (ix2 z k) = ix2 (⟨3, by omega⟩ : Fin 16) k from emb_at 3 (by omega) _ z k]))
  · intro x
    obtain ⟨z, k, rfl⟩ : ∃ (z : Fin 1) (k : Fin 1024), x = ix2 z k := ⟨x 0, x 1, eq_ix2 x⟩
    exact (congrFun (pieceB_2 x0 x1 x2 x3 x4 x5 x6 x7) _).trans ((piece_at 2 (by omega) _ _ x0 x1 x2 x3 x4 x5 x6 x7 z k).trans
      (by rw [show r1_6.emb (ix2 z k) = ix2 (⟨2, by omega⟩ : Fin 16) k from emb_at 2 (by omega) _ z k]))
  · intro x
    obtain ⟨z, k, rfl⟩ : ∃ (z : Fin 1) (k : Fin 1024), x = ix2 z k := ⟨x 0, x 1, eq_ix2 x⟩
    exact (congrFun (pieceB_1 x0 x1 x2 x3 x4 x5 x6 x7) _).trans ((piece_at 1 (by omega) _ _ x0 x1 x2 x3 x4 x5 x6 x7 z k).trans
      (by rw [show r1_4.emb (ix2 z k) = ix2 (⟨1, by omega⟩ : Fin 16) k from emb_at 1 (by omega) _ z k]))
  · intro x
    obtain ⟨z, k, rfl⟩ : ∃ (z : Fin 1) (k : Fin 1024), x = ix2 z k := ⟨x 0, x 1, eq_ix2 x⟩
    exact (congrFun (pieceB_0 x0 x1 x2 x3 x4 x5 x6 x7) _).trans ((piece_at 0 (by omega) _ _ x0 x1 x2 x3 x4 x5 x6 x7 z k).trans
      (by rw [show r1_2.emb (ix2 z k) = ix2 (⟨0, by omega⟩ : Fin 16) k from emb_at 0 (by omega) _ z k]))

/-! ## From what a point writes back to the whole array -/

variable (V : (c : Dev nD) → (b : Ref sig .tc) → Buf (Elt Ideal) ((c : Thread nD τ).loc b))

/-- The index maps over the 8 grid points: the feature, starting-vector and output blocks move along the image axis
    with the point, and each of the six parameter arrays is one block. -/
theorem idx_facts : ∀ t : Fin cfg1.N,
    win1_0.index t (0 : Fin 3) = t.val ∧ win1_0.index t (1 : Fin 3) = 0 ∧ win1_0.index t (2 : Fin 3) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 1) = 0
    ∧ win1_8.index t (0 : Fin 2) = t.val ∧ win1_8.index t (1 : Fin 2) = 0 :=
  (by decide +kernel : ∀ t : Fin grid1.N, _)

/-- What point t writes back is block t of `G1` of the arrays as the region finds them. -/
theorem flushed (c : Dev nD) (t : Fin cfg1.N) :
    (dat1 V c).flushed 8 t = ((cfg1.win 8).blk t).view.read (Elt Ideal)
      (G1 (V c main_v6) (V c main_v9) (V c main_v2) (V c main_v3) (V c main_arg6) (V c main_v4) (V c main_v5) (V c main_arg9)) := by
  show (cfg1.win 8).cut (grid1.coords t) ((dat1 V c).after 8 t) = _
  rw [after1_8]
  obtain ⟨e00, e01, e02, e10, e11, e20, e21, e30, e31, e40, e50, e51, e60, e61, e70, e80, e81⟩ := idx_facts t
  funext y
  show (out1_8 (iblk1 V c 0 t) (iblk1 V c 1 t) (iblk1 V c 2 t) (iblk1 V c 3 t) (iblk1 V c 4 t) (iblk1 V c 5 t) (iblk1 V c 6 t) (iblk1 V c 7 t) y : EReal)
    = G1 (V c main_v6) (V c main_v9) (V c main_v2) (V c main_v3) (V c main_arg6) (V c main_v4) (V c main_v5) (V c main_arg9)
        (((cfg1.win 8).blk t).view.emb y)
  rw [out1_8_eq]
  unfold G1
  have f0 : (fun (h : Fin 1024) (s : Fin 196) => (iblk1 V c 0 t (ix3 (y 0) h s) : EReal))
      = fun h s => V c main_v6 (ix3 ((((cfg1.win 8).blk t).view.emb y) 0) h s) := by
    funext h s
    show V c main_v6 (((cfg1.win 0).blk t).view.emb (ix3 (y 0) h s)) = _
    refine congrArg (V c main_v6) (funext fun a => Fin.ext ?_)
    match a with
    | ⟨0, _⟩ => show win1_0.index t (0 : Fin 3) * 16 + 1 * (y 0).val = win1_8.index t (0 : Fin 2) * 16 + 1 * (y 0).val; omega
    | ⟨1, _⟩ => show win1_0.index t (1 : Fin 3) * 1024 + 1 * h.val = h.val; omega
    | ⟨2, _⟩ => show win1_0.index t (2 : Fin 3) * 196 + 1 * s.val = s.val; omega
  have f1 : (fun (h : Fin 1024) => (iblk1 V c 1 t (ix2 (y 0) h) : EReal))
      = fun h => V c main_v9 (ix2 ((((cfg1.win 8).blk t).view.emb y) 0) h) := by
    funext h
    show V c main_v9 (((cfg1.win 1).blk t).view.emb (ix2 (y 0) h)) = _
    refine congrArg (V c main_v9) (funext fun a => Fin.ext ?_)
    match a with
    | ⟨0, _⟩ => show win1_1.index t (0 : Fin 2) * 16 + 1 * (y 0).val = win1_8.index t (0 : Fin 2) * 16 + 1 * (y 0).val; omega
    | ⟨1, _⟩ => show win1_1.index t (1 : Fin 2) * 1024 + 1 * h.val = h.val; omega
  have f2 : (fun (k : Fin 1024) (h : Fin 1024) => (iblk1 V c 2 t (ix2 k h) : EReal)) = fun k h => V c main_v2 (ix2 k h) := by
    funext k h
    show V c main_v2 (((cfg1.win 2).blk t).view.emb (ix2 k h)) = _
    refine congrArg (V c main_v2) (funext fun a => Fin.ext ?_)
    match a with
    | ⟨0, _⟩ => show win1_2.index t (0 : Fin 2) * 1024 + 1 * k.val = k.val; omega
    | ⟨1, _⟩ => show win1_2.index t (1 : Fin 2) * 1024 + 1 * h.val = h.val; omega
  have f3 : (fun (k : Fin 1024) (h : Fin 1024) => (iblk1 V c 3 t (ix2 k h) : EReal)) = fun k h => V c main_v3 (ix2 k h) := by
    funext k h
    show V c main_v3 (((cfg1.win 3).blk t).view.emb (ix2 k h)) = _
    refine congrArg (V c main_v3) (funext fun a => Fin.ext ?_)
    match a with
    | ⟨0, _⟩ => show win1_3.index t (0 : Fin 2) * 1024 + 1 * k.val = k.val; omega
    | ⟨1, _⟩ => show win1_3.index t (1 : Fin 2) * 1024 + 1 * h.val = h.val; omega
  have f4 : (fun (k : Fin 1024) => (iblk1 V c 4 t (ix1 k) : EReal)) = fun k => V c main_arg6 (ix1 k) := by
    funext k
    show V c main_arg6 (((cfg1.win 4).blk t).view.emb (ix1 k)) = _
    refine congrArg (V c main_arg6) (funext fun a => Fin.ext ?_)
    match a with
    | ⟨0, _⟩ => show win1_4.index t (0 : Fin 1) * 1024 + 1 * k.val = k.val; omega
  have f5 : (fun (k : Fin 1024) (h : Fin 1024) => (iblk1 V c 5 t (ix2 k h) : EReal)) = fun k h => V c main_v4 (ix2 k h) := by
    funext k h
    show V c main_v4 (((cfg1.win 5).blk t).view.emb (ix2 k h)) = _
    refine congrArg (V c main_v4) (funext fun a => Fin.ext ?_)
    match a with
    | ⟨0, _⟩ => show win1_5.index t (0 : Fin 2) * 1024 + 1 * k.val = k.val; omega
    | ⟨1, _⟩ => show win1_5.index t (1 : Fin 2) * 1024 + 1 * h.val = h.val; omega
  have f6 : (fun (k : Fin 1024) (h : Fin 1024) => (iblk1 V c 6 t (ix2 k h) : EReal)) = fun k h => V c main_v5 (ix2 k h) := by
    funext k h
    show V c main_v5 (((cfg1.win 6).blk t).view.emb (ix2 k h)) = _
    refine congrArg (V c main_v5) (funext fun a => Fin.ext ?_)
    match a with
    | ⟨0, _⟩ => show win1_6.index t (0 : Fin 2) * 1024 + 1 * k.val = k.val; omega
    | ⟨1, _⟩ => show win1_6.index t (1 : Fin 2) * 1024 + 1 * h.val = h.val; omega
  have f7 : (fun (k : Fin 1024) => (iblk1 V c 7 t (ix1 k) : EReal)) = fun k => V c main_arg9 (ix1 k) := by
    funext k
    show V c main_arg9 (((cfg1.win 7).blk t).view.emb (ix1 k)) = _
    refine congrArg (V c main_arg9) (funext fun a => Fin.ext ?_)
    match a with
    | ⟨0, _⟩ => show win1_7.index t (0 : Fin 1) * 1024 + 1 * k.val = k.val; omega
  have fk : (y 1 : Fin 1024) = (((cfg1.win 8).blk t).view.emb y) 1 :=
    Fin.ext (by show (y 1).val = win1_8.index t (1 : Fin 2) * 1024 + 1 * (y 1).val; omega)
  rw [f0, f1, f2, f3, f4, f5, f6, f7, ← fk]

/-- An index of the array is in point t's block iff each coordinate is in the block's range on its axis. -/
theorem mem_blk (t : Fin cfg1.N) (i : S128x1024.Idx) :
    i ∈ ((cfg1.win 8).blk t).view.set ↔ ∀ a : Fin 2, win1_8.index t a * S16x1024.size a ≤ (i a).val
      ∧ (i a).val < win1_8.index t a * S16x1024.size a + S16x1024.size a := by
  show i ∈ ((View.whole main_v10).slice (win1_8.rect t)).set ↔ _
  rw [View.set_slice_whole, Rect.mem_set_unit]
  exact Iff.rfl

/-- Every index is in some point's block: image b lies in the block of point b / 16. -/
theorem cover (i : S128x1024.Idx) : ∃ t : Fin cfg1.N, (cfg1.win 8).flush t = true ∧ i ∈ ((cfg1.win 8).blk t).view.set := by
  have hi0 : (i 0).val < 128 := (i 0).isLt
  have hi1 : (i 1).val < 1024 := (i 1).isLt
  have hN : grid1.N = 8 := N_1
  have hlt : (i 0).val / 16 < cfg1.N := by show (i 0).val / 16 < grid1.N; rw [hN]; omega
  obtain ⟨-, -, -, -, -, -, -, -, -, -, -, -, -, -, -, e80, e81⟩ := idx_facts ⟨(i 0).val / 16, hlt⟩
  have e80' : win1_8.index ⟨(i 0).val / 16, hlt⟩ (0 : Fin 2) = (i 0).val / 16 := e80
  refine ⟨⟨(i 0).val / 16, hlt⟩, flush1_8 _, ?_⟩
  rw [mem_blk]
  intro a
  match a with
  | ⟨0, _⟩ => show win1_8.index ⟨(i 0).val / 16, hlt⟩ (0 : Fin 2) * 16 ≤ (i 0).val ∧ (i 0).val < win1_8.index ⟨(i 0).val / 16, hlt⟩ (0 : Fin 2) * 16 + 16; omega
  | ⟨1, _⟩ => show win1_8.index ⟨(i 0).val / 16, hlt⟩ (1 : Fin 2) * 1024 ≤ (i 1).val ∧ (i 1).val < win1_8.index ⟨(i 0).val / 16, hlt⟩ (1 : Fin 2) * 1024 + 1024; omega

/-- The array of final question vectors after the region: `G1` of the arrays as the region finds them. -/
theorem final (c : Dev nD) : (dat1 V c).arrAt 8 cfg1.N
    = G1 (V c main_v6) (V c main_v9) (V c main_v2) (V c main_v3) (V c main_arg6) (V c main_v4) (V c main_v5) (V c main_arg9) :=
  (dat1 V c).arrAt_eq_of_cover 8 _ (fun t _ => flushed V c t) cover

end Cert.KernelIdeal.Blocks1

end
-- ==== Proof.HostReads.lean ====
/-
  What the host stretches of the kernel program leave in the buffers the two regions read.

  The program is a stretch of host operations, a region, a second stretch, a second region. The first stretch writes
  the reshaped image and the five weight matrices narrowed to bf16, each into its own buffer, and nothing else; the
  second writes the two scalar constants, the sum over time, the splat of twenty and their quotient, and nothing
  else; the first region writes only its output array. So a buffer's contents at a region's entry are found by
  walking back from that boundary: through a stretch that writes it, to the operation's value at the stretch's own
  entry contents; through a stretch or region that does not write it, unchanged; at the launch, the memory.
-/
import proofs.«168603_j28587302323079_2_alg».proof.Proof.Gen.KernelIdeal.Frame
import Idealize.ShloMosaic.Lib.StableHlo.Run
import Idealize.ShloMosaic.PureOps.Ideal

set_option maxRecDepth 16384

noncomputable section

namespace Cert.KernelIdeal.HostReads

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-! ### At the first region's entry -/

/-- The first stretch's first operation writes the image reshaped to (sample, channel, position); its operand is an
    argument, which holds the launch memory. -/
theorem v1_v0 : Gen.V1 m ρ c main_v0 = shapeCast S128x2048x196 (m ((c : Thread nD τ).loc main_arg0)) shapeCasts_S128x2048x14x14_S128x2048x196 := by
  show StableHlo.after hostOps0 (Gen.W0 m ρ c) (Proc.devRef .tc main_v0) = _
  after_results
  rfl

/-- The first stretch's second operation writes the projection weights narrowed to bf16. -/
theorem v1_v1 : Gen.V1 m ρ c main_v1 = truncf (F := Ideal) (s := S1024x2048) (φ := .f32) .bf16 (m ((c : Thread nD τ).loc main_arg2)) bitsLt_bf16_f32 := by
  show StableHlo.after hostOps0 (Gen.W0 m ρ c) (Proc.devRef .tc main_v1) = _
  after_results

/-- The first stretch does not write the projection bias: it is as launched. -/
theorem v1_arg3 : Gen.V1 m ρ c main_arg3 = (m ((c : Thread nD τ).loc main_arg3)) :=
  (StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))).trans rfl

/-! ### At the second region's entry -/

/-- The projected features are the first region's output array: the second stretch does not write it, so it holds what
    the first region's write-backs leave. -/
theorem v3_v6 : Gen.V3 m ρ c main_v6 = (Gen.dat0 (Gen.V1 m ρ) c).arrAt 3 cfg0.N :=
  (StableHlo.after_of_forall_not_mem (b := Proc.devRef .tc main_v6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))).trans (Gen.W2_arr m ρ c 3)

/-- The sequence input is an argument no stretch writes and the first region does not own: at the second stretch's
    entry it is as launched. -/
theorem w2_arg1 : Gen.W2 m ρ c (Proc.devRef .tc main_arg1) = (m ((c : Thread nD τ).loc main_arg1)) :=
  (Gen.W2_of_ne m ρ c main_arg1 (by decide)).trans
    ((StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))).trans rfl)

/-- The starting question vector: the second stretch sums the sequence input over time from the zero constant, splats
    the constant twenty, and divides; the sequence input is as launched. -/
theorem v3_v9 : Gen.V3 m ρ c main_v9
    = Host.divf (Host.reduceAdd (m ((c : Thread nD τ).loc main_arg1)) (constant (F := Ideal) S_ .f32 0x00000000#32) reducesTo_S128x20x1024_S128x1024_d1 h_S_)
        (broadcastInDim S128x1024 ![] bcast_S_S128x1024 (constant (F := Ideal) S_ .f32 0x41A00000#32)) := by
  show StableHlo.after hostOps1 (Gen.W2 m ρ c) (Proc.devRef .tc main_v9) = _
  after_results
  rw [w2_arg1 m ρ c]

/-- The first round's feature weights narrowed to bf16: the first stretch's third operation writes them, and neither the first region nor
    the second stretch touches that buffer. -/
theorem v3_v2 : Gen.V3 m ρ c main_v2 = truncf (F := Ideal) (s := S1024x1024) (φ := .f32) .bf16 (m ((c : Thread nD τ).loc main_arg4)) bitsLt_bf16_f32 := by
  have e3 : Gen.W3 m ρ c (Proc.devRef .tc main_v2) = Gen.W2 m ρ c (Proc.devRef .tc main_v2) :=
    StableHlo.after_of_forall_not_mem (b := Proc.devRef .tc main_v2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
  have e2 : Gen.W2 m ρ c (Proc.devRef .tc main_v2) = Gen.W1 m ρ c (Proc.devRef .tc main_v2) := Gen.W2_of_ne m ρ c main_v2 (by decide)
  have e1 : Gen.W1 m ρ c (Proc.devRef .tc main_v2)
      = truncf (F := Ideal) (s := S1024x1024) (φ := .f32) .bf16 (m ((c : Thread nD τ).loc main_arg4)) bitsLt_bf16_f32 := by
    show StableHlo.after hostOps0 (Gen.W0 m ρ c) (Proc.devRef .tc main_v2) = _
    after_results
  exact e3.trans (e2.trans e1)

/-- The first round's question weights narrowed to bf16: the first stretch's fourth operation writes them, and neither the first region nor
    the second stretch touches that buffer. -/
theorem v3_v3 : Gen.V3 m ρ c main_v3 = truncf (F := Ideal) (s := S1024x1024) (φ := .f32) .bf16 (m ((c : Thread nD τ).loc main_arg5)) bitsLt_bf16_f32 := by
  have e3 : Gen.W3 m ρ c (Proc.devRef .tc main_v3) = Gen.W2 m ρ c (Proc.devRef .tc main_v3) :=
    StableHlo.after_of_forall_not_mem (b := Proc.devRef .tc main_v3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
  have e2 : Gen.W2 m ρ c (Proc.devRef .tc main_v3) = Gen.W1 m ρ c (Proc.devRef .tc main_v3) := Gen.W2_of_ne m ρ c main_v3 (by decide)
  have e1 : Gen.W1 m ρ c (Proc.devRef .tc main_v3)
      = truncf (F := Ideal) (s := S1024x1024) (φ := .f32) .bf16 (m ((c : Thread nD τ).loc main_arg5)) bitsLt_bf16_f32 := by
    show StableHlo.after hostOps0 (Gen.W0 m ρ c) (Proc.devRef .tc main_v3) = _
    after_results
  exact e3.trans (e2.trans e1)

/-- The second round's feature weights narrowed to bf16: the first stretch's fifth operation writes them, and neither the first region nor
    the second stretch touches that buffer. -/
theorem v3_v4 : Gen.V3 m ρ c main_v4 = truncf (F := Ideal) (s := S1024x1024) (φ := .f32) .bf16 (m ((c : Thread nD τ).loc main_arg7)) bitsLt_bf16_f32 := by
  have e3 : Gen.W3 m ρ c (Proc.devRef .tc main_v4) = Gen.W2 m ρ c (Proc.devRef .tc main_v4) :=
    StableHlo.after_of_forall_not_mem (b := Proc.devRef .tc main_v4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
  have e2 : Gen.W2 m ρ c (Proc.devRef .tc main_v4) = Gen.W1 m ρ c (Proc.devRef .tc main_v4) := Gen.W2_of_ne m ρ c main_v4 (by decide)
  have e1 : Gen.W1 m ρ c (Proc.devRef .tc main_v4)
      = truncf (F := Ideal) (s := S1024x1024) (φ := .f32) .bf16 (m ((c : Thread nD τ).loc main_arg7)) bitsLt_bf16_f32 := by
    show StableHlo.after hostOps0 (Gen.W0 m ρ c) (Proc.devRef .tc main_v4) = _
    after_results
  exact e3.trans (e2.trans e1)

/-- The second round's question weights narrowed to bf16: the first stretch's sixth operation writes them, and neither the first region nor
    the second stretch touches that buffer. -/
theorem v3_v5 : Gen.V3 m ρ c main_v5 = truncf (F := Ideal) (s := S1024x1024) (φ := .f32) .bf16 (m ((c : Thread nD τ).loc main_arg8)) bitsLt_bf16_f32 := by
  have e3 : Gen.W3 m ρ c (Proc.devRef .tc main_v5) = Gen.W2 m ρ c (Proc.devRef .tc main_v5) :=
    StableHlo.after_of_forall_not_mem (b := Proc.devRef .tc main_v5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
  have e2 : Gen.W2 m ρ c (Proc.devRef .tc main_v5) = Gen.W1 m ρ c (Proc.devRef .tc main_v5) := Gen.W2_of_ne m ρ c main_v5 (by decide)
  have e1 : Gen.W1 m ρ c (Proc.devRef .tc main_v5)
      = truncf (F := Ideal) (s := S1024x1024) (φ := .f32) .bf16 (m ((c : Thread nD τ).loc main_arg8)) bitsLt_bf16_f32 := by
    show StableHlo.after hostOps0 (Gen.W0 m ρ c) (Proc.devRef .tc main_v5) = _
    after_results
  exact e3.trans (e2.trans e1)

/-- The first round's bias is an argument nothing writes: at the second region's entry it is as launched. -/
theorem v3_arg6 : Gen.V3 m ρ c main_arg6 = (m ((c : Thread nD τ).loc main_arg6)) :=
  (StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))).trans
    ((Gen.W2_of_ne m ρ c main_arg6 (by decide)).trans
      ((StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))).trans rfl))

/-- The second round's bias is an argument nothing writes: at the second region's entry it is as launched. -/
theorem v3_arg9 : Gen.V3 m ρ c main_arg9 = (m ((c : Thread nD τ).loc main_arg9)) :=
  (StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))).trans
    ((Gen.W2_of_ne m ρ c main_arg9 (by decide)).trans
      ((StableHlo.after_of_forall_not_mem (b := Proc.devRef .tc main_arg9) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))).trans rfl))

end Cert.KernelIdeal.HostReads

end
-- ==== Proof.RefValue.lean ====
/-
  The reference program's result, read as the mathematics of the specification.

  The reference holds the projected features as an array indexed (sample b, position s, feature h); the specification
  writes the same numbers as proj (x b) lw lb h s. Each stage of the program is read at explicit coordinates and
  identified with the corresponding formula of the specification; the two rounds of attention are the same
  operations on different buffers.
-/
import proofs.«168603_j28587302323079_2_alg».proof.Proof.Gen.ReferenceIdeal.Read
import proofs.«168603_j28587302323079_2_alg».proof.Proof.Spec
import proofs.«168603_j28587302323079_2_alg».proof.Proof.LibRowReduce
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-- The projected feature h of sample b at position s. The program contracts (activation at (b, s, c)) * (weight at
    (h, c)) over the channels c, the activation being the transposed image, i.e. the reshaped image at (b, c, s); the
    specification multiplies in the other order, and a product of two extended reals does not depend on the order. -/
theorem feat_apply (x0 : (⟨S128x2048x14x14, .f32⟩ : BufTy).Contents (Elt Ideal)) (x2 : (⟨S1024x2048, .f32⟩ : BufTy).Contents (Elt Ideal))
    (x3 : (⟨S1024, .f32⟩ : BufTy).Contents (Elt Ideal)) (b : Fin 128) (s : Fin 196) (h : Fin 1024) :
    val_main_v6 (F := Ideal) x0 x2 x3 (ix3 b s h)
      = Cert.Attn.proj (fun c s => val_main_v0 (F := Ideal) x0 (ix3 b c s)) (fun h c => x2 (ix2 h c)) (fun h => x3 (ix1 h)) h s := by
  rw [val_main_v6_apply, val_main_v5_apply, val_main_v2_apply, val_main_v4_apply, val_main_v3_apply]
  unfold Cert.Attn.proj
  show Ideal.tanh ((∑ c : Fin 2048, val_main_v1 (F := Ideal) x0 (lidx_main_v2 (ix3 b s h) c) * x2 (ridx_main_v2 (ix3 b s h) c))
    + x3 (idx_main_v3 (idx_main_v4 (ix3 b s h)))) = _
  have e3 : idx_main_v3 (idx_main_v4 (ix3 b s h)) = ix1 h :=
    funext fun a => Fin.ext (by match a with | ⟨0, _⟩ => rfl)
  rw [e3]
  refine congrArg (fun z => Ideal.tanh (z + x3 (ix1 h))) (Finset.sum_congr rfl fun c _ => ?_)
  have el : idx_main_v1 (lidx_main_v2 (ix3 b s h) c) = ix3 b c s :=
    funext fun a => Fin.ext (by match a with | ⟨0, _⟩ => rfl | ⟨1, _⟩ => rfl | ⟨2, _⟩ => rfl)
  have er : ridx_main_v2 (ix3 b s h) c = ix2 h c :=
    funext fun a => Fin.ext (by match a with | ⟨0, _⟩ => rfl | ⟨1, _⟩ => rfl)
  rw [val_main_v1_apply, el, er]
  exact mul_comm _ _

/-- The starting question vector of sample b at entry h: the program sums the 20 time steps (b, t, h) from the zero
    word and divides by the word for twenty, exactly as the specification's mean is spelled. -/
theorem u0_apply (x1 : (⟨S128x20x1024, .f32⟩ : BufTy).Contents (Elt Ideal)) (b : Fin 128) (h : Fin 1024) :
    val_main_v9 (F := Ideal) x1 (ix2 b h) = Cert.Attn.mean20 (fun t h => x1 (ix3 b t h)) h := by
  rw [val_main_v9_apply, val_main_v7_apply, val_main_v8_apply]
  unfold Cert.Attn.mean20
  show Ideal.div (Ideal.ofBits .f32 0x00000000#32 + ∑ t : Fin 20, x1 (idx_main_v7 (ix2 b h) t)) (Ideal.ofBits .f32 0x41A00000#32) = _
  refine congrArg (fun z => Ideal.div (Ideal.ofBits .f32 0x00000000#32 + z) (Ideal.ofBits .f32 0x41A00000#32))
    (Finset.sum_congr rfl fun t _ => ?_)
  exact congrArg x1 (funext fun a => Fin.ext (by match a with | ⟨0, _⟩ => rfl | ⟨1, _⟩ => rfl | ⟨2, _⟩ => rfl))

/-! ### The first round of attention -/

/-- The question vector's contribution to feature k's scores, the same at every position: the program contracts
    (question vector at (b, h)) * (transposed weight at (h, k)), and the transposed weight at (h, k) is the weight at
    (k, h); the bias at k is added. The specification writes the product in the other order. -/
theorem vq1_apply (x0 : (⟨S128x2048x14x14, .f32⟩ : BufTy).Contents (Elt Ideal)) (x1 : (⟨S128x20x1024, .f32⟩ : BufTy).Contents (Elt Ideal)) (x2 : (⟨S1024x2048, .f32⟩ : BufTy).Contents (Elt Ideal)) (x3 : (⟨S1024, .f32⟩ : BufTy).Contents (Elt Ideal))
    (x4 x5 : (⟨S1024x1024, .f32⟩ : BufTy).Contents (Elt Ideal)) (x6 : (⟨S1024, .f32⟩ : BufTy).Contents (Elt Ideal)) (b : Fin 128) (k : Fin 1024) (U : Fin 1024 → EReal) (hU : ∀ h, val_main_v9 (F := Ideal) x1 (ix2 b h) = U h) :
    val_main_v15 (F := Ideal) x1 x5 x6 (ix2 b k) = (∑ h : Fin 1024, x5 (ix2 k h) * U h) + x6 (ix1 k) := by
  rw [val_main_v15_apply, val_main_v12_apply, val_main_v14_apply, val_main_v13_apply]
  show (∑ h : Fin 1024, val_main_v9 (F := Ideal) x1 (lidx_main_v12 (ix2 b k) h) * val_main_v11 (F := Ideal) x5 (ridx_main_v12 (ix2 b k) h))
    + x6 (idx_main_v13 (idx_main_v14 (ix2 b k))) = _
  have e3 : idx_main_v13 (idx_main_v14 (ix2 b k)) = ix1 k :=
    funext fun a => Fin.ext (by match a with | ⟨0, _⟩ => rfl)
  rw [e3]
  refine congrArg (fun z => z + x6 (ix1 k)) (Finset.sum_congr rfl fun h _ => ?_)
  have el : lidx_main_v12 (ix2 b k) h = ix2 b h :=
    funext fun a => Fin.ext (by match a with | ⟨0, _⟩ => rfl | ⟨1, _⟩ => rfl)
  have er : idx_main_v11 (ridx_main_v12 (ix2 b k) h) = ix2 k h :=
    funext fun a => Fin.ext (by match a with | ⟨0, _⟩ => rfl | ⟨1, _⟩ => rfl)
  rw [val_main_v11_apply, el, er, hU h]
  exact mul_comm _ _

/-- Feature k's score of position s: the program contracts (projected feature at (b, s, h)) * (weight at (k, h)) over
    h, adds the question vector's contribution (broadcast over the positions), and takes tanh. -/
theorem score1_apply (x0 : (⟨S128x2048x14x14, .f32⟩ : BufTy).Contents (Elt Ideal)) (x1 : (⟨S128x20x1024, .f32⟩ : BufTy).Contents (Elt Ideal)) (x2 : (⟨S1024x2048, .f32⟩ : BufTy).Contents (Elt Ideal)) (x3 : (⟨S1024, .f32⟩ : BufTy).Contents (Elt Ideal))
    (x4 x5 : (⟨S1024x1024, .f32⟩ : BufTy).Contents (Elt Ideal)) (x6 : (⟨S1024, .f32⟩ : BufTy).Contents (Elt Ideal)) (b : Fin 128) (s : Fin 196) (k : Fin 1024) (U : Fin 1024 → EReal) (hU : ∀ h, val_main_v9 (F := Ideal) x1 (ix2 b h) = U h) :
    val_main_v19 (F := Ideal) x0 x1 x2 x3 x4 x5 x6 (ix3 b s k) = (Cert.Attn.score (Cert.Attn.proj (fun c s => val_main_v0 (F := Ideal) x0 (ix3 b c s)) (fun h c => x2 (ix2 h c)) (fun h => x3 (ix1 h))) (fun k h => x4 (ix2 k h)) (fun k h => x5 (ix2 k h)) (fun k => x6 (ix1 k)) U k) s := by
  rw [val_main_v19_apply, val_main_v18_apply, val_main_v10_apply, val_main_v17_apply, val_main_v16_apply]
  have e2 : idx_main_v16 (idx_main_v17 (ix3 b s k)) = ix2 b k :=
    funext fun a => Fin.ext (by match a with | ⟨0, _⟩ => rfl | ⟨1, _⟩ => rfl)
  rw [e2, vq1_apply x0 x1 x2 x3 x4 x5 x6 b k U hU]
  unfold Cert.Attn.score
  show Ideal.tanh ((∑ h : Fin 1024, val_main_v6 (F := Ideal) x0 x2 x3 (lidx_main_v10 (ix3 b s k) h) * x4 (ridx_main_v10 (ix3 b s k) h))
    + ((∑ h : Fin 1024, x5 (ix2 k h) * U h) + x6 (ix1 k))) = _
  refine congrArg (fun z => Ideal.tanh (z + ((∑ h : Fin 1024, x5 (ix2 k h) * U h) + x6 (ix1 k))))
    (Finset.sum_congr rfl fun h _ => ?_)
  have el : lidx_main_v10 (ix3 b s k) h = ix3 b s h :=
    funext fun a => Fin.ext (by match a with | ⟨0, _⟩ => rfl | ⟨1, _⟩ => rfl | ⟨2, _⟩ => rfl)
  have er : ridx_main_v10 (ix3 b s k) h = ix2 k h :=
    funext fun a => Fin.ext (by match a with | ⟨0, _⟩ => rfl | ⟨1, _⟩ => rfl)
  rw [el, er, feat_apply]
  exact mul_comm _ _

/-- The largest score of feature k: the program folds max over the 196 positions (b, s, k) from the word for minus
    infinity, then takes the maximum with minus infinity once more, which changes nothing because a fold of max
    from a value is at least that value. -/
theorem peak1_apply (x0 : (⟨S128x2048x14x14, .f32⟩ : BufTy).Contents (Elt Ideal)) (x1 : (⟨S128x20x1024, .f32⟩ : BufTy).Contents (Elt Ideal)) (x2 : (⟨S1024x2048, .f32⟩ : BufTy).Contents (Elt Ideal)) (x3 : (⟨S1024, .f32⟩ : BufTy).Contents (Elt Ideal))
    (x4 x5 : (⟨S1024x1024, .f32⟩ : BufTy).Contents (Elt Ideal)) (x6 : (⟨S1024, .f32⟩ : BufTy).Contents (Elt Ideal)) (b : Fin 128) (k : Fin 1024) (U : Fin 1024 → EReal) (hU : ∀ h, val_main_v9 (F := Ideal) x1 (ix2 b h) = U h) :
    val_main_v22 (F := Ideal) x0 x1 x2 x3 x4 x5 x6 (ix2 b k) = Cert.Attn.peak (Cert.Attn.score (Cert.Attn.proj (fun c s => val_main_v0 (F := Ideal) x0 (ix3 b c s)) (fun h c => x2 (ix2 h c)) (fun h => x3 (ix1 h))) (fun k h => x4 (ix2 k h)) (fun k h => x5 (ix2 k h)) (fun k => x6 (ix1 k)) U k) := by
  rw [val_main_v22_apply, val_main_v21_apply]
  have hfold : val_main_v20 (F := Ideal) x0 x1 x2 x3 x4 x5 x6 (ix2 b k)
      = (Finset.univ : Finset (Fin 196)).fold max (Ideal.ofBits .f32 0xFF800000#32) (Cert.Attn.score (Cert.Attn.proj (fun c s => val_main_v0 (F := Ideal) x0 (ix3 b c s)) (fun h c => x2 (ix2 h c)) (fun h => x3 (ix1 h))) (fun k h => x4 (ix2 k h)) (fun k h => x5 (ix2 k h)) (fun k => x6 (ix1 k)) U k) := by
    unfold val_main_v20
    rw [Host.reduce_eq_fold_single FloatOps.maximumf _ _ reducesTo_S128x196x1024_S128x1024_d1
      (by decide : S128x196x1024.Reduces [1] S128x1024) h_S_ (ix2 b k)]
    refine congrArg (fun f => Finset.fold max (Ideal.ofBits .f32 0xFF800000#32) f (Finset.univ : Finset (Fin 196)))
      (funext fun s => ?_)
    show val_main_v19 (F := Ideal) x0 x1 x2 x3 x4 x5 x6 (Shape.Reduces.lift _ (ix2 b k) s) = _
    have e : Shape.Reduces.lift (by decide : S128x196x1024.Reduces [1] S128x1024) (ix2 b k) s = ix3 b s k :=
      funext fun a => Fin.ext (by match a with | ⟨0, _⟩ => rfl | ⟨1, _⟩ => rfl | ⟨2, _⟩ => rfl)
    rw [e]
    exact score1_apply x0 x1 x2 x3 x4 x5 x6 b s k U hU
  rw [hfold]
  exact max_fold_max_self _ _ _

/-- The unnormalised weight of position s for feature k: exp (score - largest score), the largest score broadcast
    over the positions. -/
theorem weight1_apply (x0 : (⟨S128x2048x14x14, .f32⟩ : BufTy).Contents (Elt Ideal)) (x1 : (⟨S128x20x1024, .f32⟩ : BufTy).Contents (Elt Ideal)) (x2 : (⟨S1024x2048, .f32⟩ : BufTy).Contents (Elt Ideal)) (x3 : (⟨S1024, .f32⟩ : BufTy).Contents (Elt Ideal))
    (x4 x5 : (⟨S1024x1024, .f32⟩ : BufTy).Contents (Elt Ideal)) (x6 : (⟨S1024, .f32⟩ : BufTy).Contents (Elt Ideal)) (b : Fin 128) (s : Fin 196) (k : Fin 1024) (U : Fin 1024 → EReal) (hU : ∀ h, val_main_v9 (F := Ideal) x1 (ix2 b h) = U h) :
    val_main_v26 (F := Ideal) x0 x1 x2 x3 x4 x5 x6 (ix3 b s k) = Cert.Attn.weight (Cert.Attn.score (Cert.Attn.proj (fun c s => val_main_v0 (F := Ideal) x0 (ix3 b c s)) (fun h c => x2 (ix2 h c)) (fun h => x3 (ix1 h))) (fun k h => x4 (ix2 k h)) (fun k h => x5 (ix2 k h)) (fun k => x6 (ix1 k)) U k) s := by
  rw [val_main_v26_apply, val_main_v25_apply, val_main_v24_apply, val_main_v23_apply]
  have e2 : idx_main_v23 (idx_main_v24 (ix3 b s k)) = ix2 b k :=
    funext fun a => Fin.ext (by match a with | ⟨0, _⟩ => rfl | ⟨1, _⟩ => rfl)
  rw [e2, score1_apply x0 x1 x2 x3 x4 x5 x6 b s k U hU, peak1_apply x0 x1 x2 x3 x4 x5 x6 b k U hU]
  rfl

/-- The sum of feature k's weights over the positions: the program's sum starts from the zero word, which is the
    number zero and drops out. -/
theorem denom1_apply (x0 : (⟨S128x2048x14x14, .f32⟩ : BufTy).Contents (Elt Ideal)) (x1 : (⟨S128x20x1024, .f32⟩ : BufTy).Contents (Elt Ideal)) (x2 : (⟨S1024x2048, .f32⟩ : BufTy).Contents (Elt Ideal)) (x3 : (⟨S1024, .f32⟩ : BufTy).Contents (Elt Ideal))
    (x4 x5 : (⟨S1024x1024, .f32⟩ : BufTy).Contents (Elt Ideal)) (x6 : (⟨S1024, .f32⟩ : BufTy).Contents (Elt Ideal)) (b : Fin 128) (k : Fin 1024) (U : Fin 1024 → EReal) (hU : ∀ h, val_main_v9 (F := Ideal) x1 (ix2 b h) = U h) :
    val_main_v27 (F := Ideal) x0 x1 x2 x3 x4 x5 x6 (ix2 b k) = ∑ t : Fin 196, Cert.Attn.weight (Cert.Attn.score (Cert.Attn.proj (fun c s => val_main_v0 (F := Ideal) x0 (ix3 b c s)) (fun h c => x2 (ix2 h c)) (fun h => x3 (ix1 h))) (fun k h => x4 (ix2 k h)) (fun k h => x5 (ix2 k h)) (fun k => x6 (ix1 k)) U k) t := by
  rw [val_main_v27_apply]
  show Ideal.ofBits .f32 0x00000000#32 + ∑ t : Fin 196, val_main_v26 (F := Ideal) x0 x1 x2 x3 x4 x5 x6 (idx_main_v27 (ix2 b k) t) = _
  rw [Ideal.ofBits_zero_f32, zero_add]
  refine Finset.sum_congr rfl fun t _ => ?_
  have e : idx_main_v27 (ix2 b k) t = ix3 b t k :=
    funext fun a => Fin.ext (by match a with | ⟨0, _⟩ => rfl | ⟨1, _⟩ => rfl | ⟨2, _⟩ => rfl)
  rw [e]
  exact weight1_apply x0 x1 x2 x3 x4 x5 x6 b t k U hU

/-- The round's result at entry k: the question vector's entry plus the sum over the positions s of
    (weight / sum of the weights) * (projected feature k at s), the sum again starting from the zero word. -/
theorem out1_apply (x0 : (⟨S128x2048x14x14, .f32⟩ : BufTy).Contents (Elt Ideal)) (x1 : (⟨S128x20x1024, .f32⟩ : BufTy).Contents (Elt Ideal)) (x2 : (⟨S1024x2048, .f32⟩ : BufTy).Contents (Elt Ideal)) (x3 : (⟨S1024, .f32⟩ : BufTy).Contents (Elt Ideal))
    (x4 x5 : (⟨S1024x1024, .f32⟩ : BufTy).Contents (Elt Ideal)) (x6 : (⟨S1024, .f32⟩ : BufTy).Contents (Elt Ideal)) (b : Fin 128) (k : Fin 1024) (U : Fin 1024 → EReal) (hU : ∀ h, val_main_v9 (F := Ideal) x1 (ix2 b h) = U h) :
    val_main_v33 (F := Ideal) x0 x1 x2 x3 x4 x5 x6 (ix2 b k) = Cert.Attn.step (Cert.Attn.proj (fun c s => val_main_v0 (F := Ideal) x0 (ix3 b c s)) (fun h c => x2 (ix2 h c)) (fun h => x3 (ix1 h))) (fun k h => x4 (ix2 k h)) (fun k h => x5 (ix2 k h)) (fun k => x6 (ix1 k)) U k := by
  rw [val_main_v33_apply, val_main_v32_apply]
  show val_main_v9 (F := Ideal) x1 (ix2 b k) + (Ideal.ofBits .f32 0x00000000#32 + ∑ s : Fin 196, val_main_v31 (F := Ideal) x0 x1 x2 x3 x4 x5 x6 (idx_main_v32 (ix2 b k) s)) = _
  rw [Ideal.ofBits_zero_f32, zero_add, hU k]
  unfold Cert.Attn.step
  refine congrArg (fun z => U k + z) (Finset.sum_congr rfl fun s _ => ?_)
  have e : idx_main_v32 (ix2 b k) s = ix3 b s k :=
    funext fun a => Fin.ext (by match a with | ⟨0, _⟩ => rfl | ⟨1, _⟩ => rfl | ⟨2, _⟩ => rfl)
  rw [e, val_main_v31_apply, val_main_v30_apply, val_main_v29_apply, val_main_v28_apply]
  have e2 : idx_main_v28 (idx_main_v29 (ix3 b s k)) = ix2 b k :=
    funext fun a => Fin.ext (by match a with | ⟨0, _⟩ => rfl | ⟨1, _⟩ => rfl)
  rw [e2, weight1_apply x0 x1 x2 x3 x4 x5 x6 b s k U hU, denom1_apply x0 x1 x2 x3 x4 x5 x6 b k U hU, feat_apply]
  rfl

/-! ### The second round of attention -/

/-- The question vector's contribution to feature k's scores, the same at every position: the program contracts
    (question vector at (b, h)) * (transposed weight at (h, k)), and the transposed weight at (h, k) is the weight at
    (k, h); the bias at k is added. The specification writes the product in the other order. -/
theorem vq2_apply (x0 : (⟨S128x2048x14x14, .f32⟩ : BufTy).Contents (Elt Ideal)) (x1 : (⟨S128x20x1024, .f32⟩ : BufTy).Contents (Elt Ideal)) (x2 : (⟨S1024x2048, .f32⟩ : BufTy).Contents (Elt Ideal)) (x3 : (⟨S1024, .f32⟩ : BufTy).Contents (Elt Ideal))
    (x4 x5 : (⟨S1024x1024, .f32⟩ : BufTy).Contents (Elt Ideal)) (x6 : (⟨S1024, .f32⟩ : BufTy).Contents (Elt Ideal)) (x7 x8 : (⟨S1024x1024, .f32⟩ : BufTy).Contents (Elt Ideal)) (x9 : (⟨S1024, .f32⟩ : BufTy).Contents (Elt Ideal)) (b : Fin 128) (k : Fin 1024) (U : Fin 1024 → EReal) (hU : ∀ h, val_main_v33 (F := Ideal) x0 x1 x2 x3 x4 x5 x6 (ix2 b h) = U h) :
    val_main_v39 (F := Ideal) x0 x1 x2 x3 x4 x5 x6 x8 x9 (ix2 b k) = (∑ h : Fin 1024, x8 (ix2 k h) * U h) + x9 (ix1 k) := by
  rw [val_main_v39_apply, val_main_v36_apply, val_main_v38_apply, val_main_v37_apply]
  show (∑ h : Fin 1024, val_main_v33 (F := Ideal) x0 x1 x2 x3 x4 x5 x6 (lidx_main_v36 (ix2 b k) h) * val_main_v35 (F := Ideal) x8 (ridx_main_v36 (ix2 b k) h))
    + x9 (idx_main_v37 (idx_main_v38 (ix2 b k))) = _
  have e3 : idx_main_v37 (idx_main_v38 (ix2 b k)) = ix1 k :=
    funext fun a => Fin.ext (by match a with | ⟨0, _⟩ => rfl)
  rw [e3]
  refine congrArg (fun z => z + x9 (ix1 k)) (Finset.sum_congr rfl fun h _ => ?_)
  have el : lidx_main_v36 (ix2 b k) h = ix2 b h :=
    funext fun a => Fin.ext (by match a with | ⟨0, _⟩ => rfl | ⟨1, _⟩ => rfl)
  have er : idx_main_v35 (ridx_main_v36 (ix2 b k) h) = ix2 k h :=
    funext fun a => Fin.ext (by match a with | ⟨0, _⟩ => rfl | ⟨1, _⟩ => rfl)
  rw [val_main_v35_apply, el, er, hU h]
  exact mul_comm _ _

/-- Feature k's score of position s: the program contracts (projected feature at (b, s, h)) * (weight at (k, h)) over
    h, adds the question vector's contribution (broadcast over the positions), and takes tanh. -/
theorem score2_apply (x0 : (⟨S128x2048x14x14, .f32⟩ : BufTy).Contents (Elt Ideal)) (x1 : (⟨S128x20x1024, .f32⟩ : BufTy).Contents (Elt Ideal)) (x2 : (⟨S1024x2048, .f32⟩ : BufTy).Contents (Elt Ideal)) (x3 : (⟨S1024, .f32⟩ : BufTy).Contents (Elt Ideal))
    (x4 x5 : (⟨S1024x1024, .f32⟩ : BufTy).Contents (Elt Ideal)) (x6 : (⟨S1024, .f32⟩ : BufTy).Contents (Elt Ideal)) (x7 x8 : (⟨S1024x1024, .f32⟩ : BufTy).Contents (Elt Ideal)) (x9 : (⟨S1024, .f32⟩ : BufTy).Contents (Elt Ideal)) (b : Fin 128) (s : Fin 196) (k : Fin 1024) (U : Fin 1024 → EReal) (hU : ∀ h, val_main_v33 (F := Ideal) x0 x1 x2 x3 x4 x5 x6 (ix2 b h) = U h) :
    val_main_v43 (F := Ideal) x0 x1 x2 x3 x4 x5 x6 x7 x8 x9 (ix3 b s k) = (Cert.Attn.score (Cert.Attn.proj (fun c s => val_main_v0 (F := Ideal) x0 (ix3 b c s)) (fun h c => x2 (ix2 h c)) (fun h => x3 (ix1 h))) (fun k h => x7 (ix2 k h)) (fun k h => x8 (ix2 k h)) (fun k => x9 (ix1 k)) U k) s := by
  rw [val_main_v43_apply, val_main_v42_apply, val_main_v34_apply, val_main_v41_apply, val_main_v40_apply]
  have e2 : idx_main_v40 (idx_main_v41 (ix3 b s k)) = ix2 b k :=
    funext fun a => Fin.ext (by match a with | ⟨0, _⟩ => rfl | ⟨1, _⟩ => rfl)
  rw [e2, vq2_apply x0 x1 x2 x3 x4 x5 x6 x7 x8 x9 b k U hU]
  unfold Cert.Attn.score
  show Ideal.tanh ((∑ h : Fin 1024, val_main_v6 (F := Ideal) x0 x2 x3 (lidx_main_v34 (ix3 b s k) h) * x7 (ridx_main_v34 (ix3 b s k) h))
    + ((∑ h : Fin 1024, x8 (ix2 k h) * U h) + x9 (ix1 k))) = _
  refine congrArg (fun z => Ideal.tanh (z + ((∑ h : Fin 1024, x8 (ix2 k h) * U h) + x9 (ix1 k))))
    (Finset.sum_congr rfl fun h _ => ?_)
  have el : lidx_main_v34 (ix3 b s k) h = ix3 b s h :=
    funext fun a => Fin.ext (by match a with | ⟨0, _⟩ => rfl | ⟨1, _⟩ => rfl | ⟨2, _⟩ => rfl)
  have er : ridx_main_v34 (ix3 b s k) h = ix2 k h :=
    funext fun a => Fin.ext (by match a with | ⟨0, _⟩ => rfl | ⟨1, _⟩ => rfl)
  rw [el, er, feat_apply]
  exact mul_comm _ _

/-- The largest score of feature k: the program folds max over the 196 positions (b, s, k) from the word for minus
    infinity, then takes the maximum with minus infinity once more, which changes nothing because a fold of max
    from a value is at least that value. -/
theorem peak2_apply (x0 : (⟨S128x2048x14x14, .f32⟩ : BufTy).Contents (Elt Ideal)) (x1 : (⟨S128x20x1024, .f32⟩ : BufTy).Contents (Elt Ideal)) (x2 : (⟨S1024x2048, .f32⟩ : BufTy).Contents (Elt Ideal)) (x3 : (⟨S1024, .f32⟩ : BufTy).Contents (Elt Ideal))
    (x4 x5 : (⟨S1024x1024, .f32⟩ : BufTy).Contents (Elt Ideal)) (x6 : (⟨S1024, .f32⟩ : BufTy).Contents (Elt Ideal)) (x7 x8 : (⟨S1024x1024, .f32⟩ : BufTy).Contents (Elt Ideal)) (x9 : (⟨S1024, .f32⟩ : BufTy).Contents (Elt Ideal)) (b : Fin 128) (k : Fin 1024) (U : Fin 1024 → EReal) (hU : ∀ h, val_main_v33 (F := Ideal) x0 x1 x2 x3 x4 x5 x6 (ix2 b h) = U h) :
    val_main_v46 (F := Ideal) x0 x1 x2 x3 x4 x5 x6 x7 x8 x9 (ix2 b k) = Cert.Attn.peak (Cert.Attn.score (Cert.Attn.proj (fun c s => val_main_v0 (F := Ideal) x0 (ix3 b c s)) (fun h c => x2 (ix2 h c)) (fun h => x3 (ix1 h))) (fun k h => x7 (ix2 k h)) (fun k h => x8 (ix2 k h)) (fun k => x9 (ix1 k)) U k) := by
  rw [val_main_v46_apply, val_main_v45_apply]
  have hfold : val_main_v44 (F := Ideal) x0 x1 x2 x3 x4 x5 x6 x7 x8 x9 (ix2 b k)
      = (Finset.univ : Finset (Fin 196)).fold max (Ideal.ofBits .f32 0xFF800000#32) (Cert.Attn.score (Cert.Attn.proj (fun c s => val_main_v0 (F := Ideal) x0 (ix3 b c s)) (fun h c => x2 (ix2 h c)) (fun h => x3 (ix1 h))) (fun k h => x7 (ix2 k h)) (fun k h => x8 (ix2 k h)) (fun k => x9 (ix1 k)) U k) := by
    unfold val_main_v44
    rw [Host.reduce_eq_fold_single FloatOps.maximumf _ _ reducesTo_S128x196x1024_S128x1024_d1
      (by decide : S128x196x1024.Reduces [1] S128x1024) h_S_ (ix2 b k)]
    refine congrArg (fun f => Finset.fold max (Ideal.ofBits .f32 0xFF800000#32) f (Finset.univ : Finset (Fin 196)))
      (funext fun s => ?_)
    show val_main_v43 (F := Ideal) x0 x1 x2 x3 x4 x5 x6 x7 x8 x9 (Shape.Reduces.lift _ (ix2 b k) s) = _
    have e : Shape.Reduces.lift (by decide : S128x196x1024.Reduces [1] S128x1024) (ix2 b k) s = ix3 b s k :=
      funext fun a => Fin.ext (by match a with | ⟨0, _⟩ => rfl | ⟨1, _⟩ => rfl | ⟨2, _⟩ => rfl)
    rw [e]
    exact score2_apply x0 x1 x2 x3 x4 x5 x6 x7 x8 x9 b s k U hU
  rw [hfold]
  exact max_fold_max_self _ _ _

/-- The unnormalised weight of position s for feature k: exp (score - largest score), the largest score broadcast
    over the positions. -/
theorem weight2_apply (x0 : (⟨S128x2048x14x14, .f32⟩ : BufTy).Contents (Elt Ideal)) (x1 : (⟨S128x20x1024, .f32⟩ : BufTy).Contents (Elt Ideal)) (x2 : (⟨S1024x2048, .f32⟩ : BufTy).Contents (Elt Ideal)) (x3 : (⟨S1024, .f32⟩ : BufTy).Contents (Elt Ideal))
    (x4 x5 : (⟨S1024x1024, .f32⟩ : BufTy).Contents (Elt Ideal)) (x6 : (⟨S1024, .f32⟩ : BufTy).Contents (Elt Ideal)) (x7 x8 : (⟨S1024x1024, .f32⟩ : BufTy).Contents (Elt Ideal)) (x9 : (⟨S1024, .f32⟩ : BufTy).Contents (Elt Ideal)) (b : Fin 128) (s : Fin 196) (k : Fin 1024) (U : Fin 1024 → EReal) (hU : ∀ h, val_main_v33 (F := Ideal) x0 x1 x2 x3 x4 x5 x6 (ix2 b h) = U h) :
    val_main_v50 (F := Ideal) x0 x1 x2 x3 x4 x5 x6 x7 x8 x9 (ix3 b s k) = Cert.Attn.weight (Cert.Attn.score (Cert.Attn.proj (fun c s => val_main_v0 (F := Ideal) x0 (ix3 b c s)) (fun h c => x2 (ix2 h c)) (fun h => x3 (ix1 h))) (fun k h => x7 (ix2 k h)) (fun k h => x8 (ix2 k h)) (fun k => x9 (ix1 k)) U k) s := by
  rw [val_main_v50_apply, val_main_v49_apply, val_main_v48_apply, val_main_v47_apply]
  have e2 : idx_main_v47 (idx_main_v48 (ix3 b s k)) = ix2 b k :=
    funext fun a => Fin.ext (by match a with | ⟨0, _⟩ => rfl | ⟨1, _⟩ => rfl)
  rw [e2, score2_apply x0 x1 x2 x3 x4 x5 x6 x7 x8 x9 b s k U hU, peak2_apply x0 x1 x2 x3 x4 x5 x6 x7 x8 x9 b k U hU]
  rfl

/-- The sum of feature k's weights over the positions: the program's sum starts from the zero word, which is the
    number zero and drops out. -/
theorem denom2_apply (x0 : (⟨S128x2048x14x14, .f32⟩ : BufTy).Contents (Elt Ideal)) (x1 : (⟨S128x20x1024, .f32⟩ : BufTy).Contents (Elt Ideal)) (x2 : (⟨S1024x2048, .f32⟩ : BufTy).Contents (Elt Ideal)) (x3 : (⟨S1024, .f32⟩ : BufTy).Contents (Elt Ideal))
    (x4 x5 : (⟨S1024x1024, .f32⟩ : BufTy).Contents (Elt Ideal)) (x6 : (⟨S1024, .f32⟩ : BufTy).Contents (Elt Ideal)) (x7 x8 : (⟨S1024x1024, .f32⟩ : BufTy).Contents (Elt Ideal)) (x9 : (⟨S1024, .f32⟩ : BufTy).Contents (Elt Ideal)) (b : Fin 128) (k : Fin 1024) (U : Fin 1024 → EReal) (hU : ∀ h, val_main_v33 (F := Ideal) x0 x1 x2 x3 x4 x5 x6 (ix2 b h) = U h) :
    val_main_v51 (F := Ideal) x0 x1 x2 x3 x4 x5 x6 x7 x8 x9 (ix2 b k) = ∑ t : Fin 196, Cert.Attn.weight (Cert.Attn.score (Cert.Attn.proj (fun c s => val_main_v0 (F := Ideal) x0 (ix3 b c s)) (fun h c => x2 (ix2 h c)) (fun h => x3 (ix1 h))) (fun k h => x7 (ix2 k h)) (fun k h => x8 (ix2 k h)) (fun k => x9 (ix1 k)) U k) t := by
  rw [val_main_v51_apply]
  show Ideal.ofBits .f32 0x00000000#32 + ∑ t : Fin 196, val_main_v50 (F := Ideal) x0 x1 x2 x3 x4 x5 x6 x7 x8 x9 (idx_main_v51 (ix2 b k) t) = _
  rw [Ideal.ofBits_zero_f32, zero_add]
  refine Finset.sum_congr rfl fun t _ => ?_
  have e : idx_main_v51 (ix2 b k) t = ix3 b t k :=
    funext fun a => Fin.ext (by match a with | ⟨0, _⟩ => rfl | ⟨1, _⟩ => rfl | ⟨2, _⟩ => rfl)
  rw [e]
  exact weight2_apply x0 x1 x2 x3 x4 x5 x6 x7 x8 x9 b t k U hU

/-- The round's result at entry k: the question vector's entry plus the sum over the positions s of
    (weight / sum of the weights) * (projected feature k at s), the sum again starting from the zero word. -/
theorem out2_apply (x0 : (⟨S128x2048x14x14, .f32⟩ : BufTy).Contents (Elt Ideal)) (x1 : (⟨S128x20x1024, .f32⟩ : BufTy).Contents (Elt Ideal)) (x2 : (⟨S1024x2048, .f32⟩ : BufTy).Contents (Elt Ideal)) (x3 : (⟨S1024, .f32⟩ : BufTy).Contents (Elt Ideal))
    (x4 x5 : (⟨S1024x1024, .f32⟩ : BufTy).Contents (Elt Ideal)) (x6 : (⟨S1024, .f32⟩ : BufTy).Contents (Elt Ideal)) (x7 x8 : (⟨S1024x1024, .f32⟩ : BufTy).Contents (Elt Ideal)) (x9 : (⟨S1024, .f32⟩ : BufTy).Contents (Elt Ideal)) (b : Fin 128) (k : Fin 1024) (U : Fin 1024 → EReal) (hU : ∀ h, val_main_v33 (F := Ideal) x0 x1 x2 x3 x4 x5 x6 (ix2 b h) = U h) :
    val_main_v57 (F := Ideal) x0 x1 x2 x3 x4 x5 x6 x7 x8 x9 (ix2 b k) = Cert.Attn.step (Cert.Attn.proj (fun c s => val_main_v0 (F := Ideal) x0 (ix3 b c s)) (fun h c => x2 (ix2 h c)) (fun h => x3 (ix1 h))) (fun k h => x7 (ix2 k h)) (fun k h => x8 (ix2 k h)) (fun k => x9 (ix1 k)) U k := by
  rw [val_main_v57_apply, val_main_v56_apply]
  show val_main_v33 (F := Ideal) x0 x1 x2 x3 x4 x5 x6 (ix2 b k) + (Ideal.ofBits .f32 0x00000000#32 + ∑ s : Fin 196, val_main_v55 (F := Ideal) x0 x1 x2 x3 x4 x5 x6 x7 x8 x9 (idx_main_v56 (ix2 b k) s)) = _
  rw [Ideal.ofBits_zero_f32, zero_add, hU k]
  unfold Cert.Attn.step
  refine congrArg (fun z => U k + z) (Finset.sum_congr rfl fun s _ => ?_)
  have e : idx_main_v56 (ix2 b k) s = ix3 b s k :=
    funext fun a => Fin.ext (by match a with | ⟨0, _⟩ => rfl | ⟨1, _⟩ => rfl | ⟨2, _⟩ => rfl)
  rw [e, val_main_v55_apply, val_main_v54_apply, val_main_v53_apply, val_main_v52_apply]
  have e2 : idx_main_v52 (idx_main_v53 (ix3 b s k)) = ix2 b k :=
    funext fun a => Fin.ext (by match a with | ⟨0, _⟩ => rfl | ⟨1, _⟩ => rfl)
  rw [e2, weight2_apply x0 x1 x2 x3 x4 x5 x6 x7 x8 x9 b s k U hU, denom2_apply x0 x1 x2 x3 x4 x5 x6 x7 x8 x9 b k U hU, feat_apply]
  rfl

/-! ### The whole program -/

/-- The program's result at (b, k) is the specification's: the starting vector is the mean over time, the first round
    turns it into the vector the second round starts from, and the second round's output is the result. The image
    enters only through its reshape to (sample, channel, position), which is left as it stands. -/
theorem result_eq (x0 : (⟨S128x2048x14x14, .f32⟩ : BufTy).Contents (Elt Ideal)) (x1 : (⟨S128x20x1024, .f32⟩ : BufTy).Contents (Elt Ideal)) (x2 : (⟨S1024x2048, .f32⟩ : BufTy).Contents (Elt Ideal)) (x3 : (⟨S1024, .f32⟩ : BufTy).Contents (Elt Ideal))
    (x4 x5 : (⟨S1024x1024, .f32⟩ : BufTy).Contents (Elt Ideal)) (x6 : (⟨S1024, .f32⟩ : BufTy).Contents (Elt Ideal)) (x7 x8 : (⟨S1024x1024, .f32⟩ : BufTy).Contents (Elt Ideal)) (x9 : (⟨S1024, .f32⟩ : BufTy).Contents (Elt Ideal)) :
    val_main_v57 (F := Ideal) x0 x1 x2 x3 x4 x5 x6 x7 x8 x9 = fun i =>
      Cert.Attn.result (fun b c s => val_main_v0 (F := Ideal) x0 (ix3 b c s)) (fun b t h => x1 (ix3 b t h))
        (fun h c => x2 (ix2 h c)) (fun h => x3 (ix1 h)) (fun k h => x4 (ix2 k h)) (fun k h => x5 (ix2 k h)) (fun k => x6 (ix1 k))
        (fun k h => x7 (ix2 k h)) (fun k h => x8 (ix2 k h)) (fun k => x9 (ix1 k)) (i 0) (i 1) := by
  funext i
  obtain ⟨b, k, rfl⟩ : ∃ (b : Fin 128) (k : Fin 1024), i = ix2 b k := ⟨i 0, i 1, eq_ix2 i⟩
  exact out2_apply x0 x1 x2 x3 x4 x5 x6 x7 x8 x9 b k _
    (fun h => out1_apply x0 x1 x2 x3 x4 x5 x6 b h _ (fun h' => u0_apply x1 b h'))

end Cert.ReferenceIdeal.RefValue

end
-- ==== Proof.KernelWhole.lean ====
/-
  The kernel program's result array as one function of its ten argument arrays.

  The run passes four boundaries. The first stretch of host operations recasts the image array to [128, 2048, 196] and
  changes the format of the five weight arrays (the identity on the extended reals). The projection region then leaves
  the projected features. The second stretch takes the mean of the question array over its 20 time steps. The
  attention region leaves the final question vectors. Nothing later writes a buffer that an earlier boundary filled,
  so reading the last boundary's contents at the result array back through the four boundaries gives
  `Cert.Attn.result` of the arguments: sample b, entry k.
-/
import proofs.«168603_j28587302323079_2_alg».proof.Proof.Blocks0
import proofs.«168603_j28587302323079_2_alg».proof.Proof.Blocks1
import proofs.«168603_j28587302323079_2_alg».proof.Proof.HostReads
import proofs.«168603_j28587302323079_2_alg».proof.Proof.RefValue

set_option synthInstance.maxSize 4096
set_option maxRecDepth 16384

noncomputable section

open scoped BigOperators

namespace Cert.KernelIdeal.Whole

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-- The last boundary's contents at the result array: `Cert.Attn.result` of the argument arrays. -/
theorem w4_eq : (Gen.W4 m ρ c (Proc.devRef .tc main_v10) : S128x1024.Idx → Elt Ideal .f32) = fun i =>
      Cert.Attn.result (fun b ch s => Cert.ReferenceIdeal.Read.val_main_v0 (F := Ideal) (m ((c : Thread nD τ).loc main_arg0)) (ix3 b ch s))
        (fun b t h => (m ((c : Thread nD τ).loc main_arg1)) (ix3 b t h)) (fun h ch => (m ((c : Thread nD τ).loc main_arg2)) (ix2 h ch)) (fun h => (m ((c : Thread nD τ).loc main_arg3)) (ix1 h))
        (fun k h => (m ((c : Thread nD τ).loc main_arg4)) (ix2 k h)) (fun k h => (m ((c : Thread nD τ).loc main_arg5)) (ix2 k h)) (fun k => (m ((c : Thread nD τ).loc main_arg6)) (ix1 k))
        (fun k h => (m ((c : Thread nD τ).loc main_arg7)) (ix2 k h)) (fun k h => (m ((c : Thread nD τ).loc main_arg8)) (ix2 k h)) (fun k => (m ((c : Thread nD τ).loc main_arg9)) (ix1 k)) (i 0) (i 1) := by
  have h4 : (Gen.W4 m ρ c (Proc.devRef .tc main_v10) : S128x1024.Idx → Elt Ideal .f32) = (dat1 (V3 m ρ) c).arrAt 8 cfg1.N :=
    Gen.W4_arr m ρ c 8
  rw [h4, Blocks1.final (V3 m ρ) c, HostReads.v3_v6, HostReads.v3_v9, HostReads.v3_v2, HostReads.v3_v3, HostReads.v3_arg6,
    HostReads.v3_v4, HostReads.v3_v5, HostReads.v3_arg9, Blocks0.final (V1 m ρ) c, HostReads.v1_v0, HostReads.v1_v1, HostReads.v1_arg3]
  funext i
  unfold Blocks1.G1 Cert.Attn.result
  exact congrArg (fun u => Cert.Attn.twice _ _ _ _ _ _ _ u (i 1))
    (funext fun h => Cert.ReferenceIdeal.RefValue.u0_apply (m ((c : Thread nD τ).loc main_arg1)) (i 0) h)

end Cert.KernelIdeal.Whole

end
-- ==== Proof.lean ====
/-
  Additive attention, twice over: the kernel program against its plain reference, on the extended reals.

  Both programs project every image's 2048 channels over 196 positions to 1024 features through tanh, start a
  question vector at the mean of 20 time steps, and then twice let every feature score the positions (tanh of a row of
  one weight matrix against the features there, plus a row of another against the question vector, plus a bias), turn
  each feature's scores into weights exp(score - largest score) divided by their sum, and add to the question vector
  the weighted sum of that feature over the positions (`Cert.Attn.result`, Proof/Spec.lean).

  The kernel program does this in two tiled regions — four images per point for the projection, sixteen per point for
  the two rounds — keeping the features as (image, feature, position) and multiplying weight by activation; the
  reference keeps them as (image, position, feature), multiplies activation by weight, and reduces over the middle
  axis. On the extended reals a change of float format is the identity, the matrix-unit products and the host's
  contractions are the same finite sums, and the two orders of a product agree by commutativity; no step distributes a
  product over a sum or cancels, so nothing needs the inputs to be finite. The kernel's side is read off its run in
  Proof/KernelRun.lean (the run with the result's contents named), Proof/Blocks0.lean and Proof/Blocks1.lean (each
  region's blocks as one whole-array function), Proof/HostReads.lean (the host stretches) and Proof/KernelWhole.lean
  (the four boundaries composed); the reference's side is Proof/RefValue.lean over the generated reading of its run.
  The ideal pass rewrote no operation, so the kernel's idealization claim has no conjunct.
-/
import proofs.«168603_j28587302323079_2_alg».proof.Defs
import proofs.«168603_j28587302323079_2_alg».proof.Proof.Gen.Kernel
import proofs.«168603_j28587302323079_2_alg».proof.Proof.Gen.Kernel.Skeleton
import proofs.«168603_j28587302323079_2_alg».proof.Proof.Gen.Kernel.Launch
import proofs.«168603_j28587302323079_2_alg».proof.Proof.Gen.Kernel.Points
import proofs.«168603_j28587302323079_2_alg».proof.Proof.Gen.Kernel.Frame
import proofs.«168603_j28587302323079_2_alg».proof.Proof.Gen.KernelIdeal
import proofs.«168603_j28587302323079_2_alg».proof.Proof.Gen.KernelIdeal.Skeleton
import proofs.«168603_j28587302323079_2_alg».proof.Proof.Gen.KernelIdeal.Launch
import proofs.«168603_j28587302323079_2_alg».proof.Proof.Gen.KernelIdeal.Points
import proofs.«168603_j28587302323079_2_alg».proof.Proof.Gen.KernelIdeal.Frame
import proofs.«168603_j28587302323079_2_alg».proof.Proof.Gen.ReferenceIdeal
import proofs.«168603_j28587302323079_2_alg».proof.Proof.Gen.Pre_finite_inputs
import proofs.«168603_j28587302323079_2_alg».proof.Proof.Gen.ReferenceIdeal.Run
import proofs.«168603_j28587302323079_2_alg».proof.Proof.Gen.ReferenceIdeal.Read
import proofs.«168603_j28587302323079_2_alg».proof.Proof.KernelRun
import proofs.«168603_j28587302323079_2_alg».proof.Proof.KernelWhole
import proofs.«168603_j28587302323079_2_alg».proof.Proof.RefValue
import Idealize.ShloMosaic.Adequacy
import Idealize.ShloMosaic.Init

set_option maxRecDepth 16384

noncomputable section

namespace Cert.Proof

open Idealize.ShloMosaic Idealize.ShloMosaic.ValueIdx Idealize.SL.Sem

/-- The printed kernel program runs and leaves its arguments as launched. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories that agree on the ten arguments both programs end with the result array at `Cert.Attn.result` of
    those arguments, sample b and entry k at index (b, k). -/
theorem algebraic : Cert.algebraic_KernelIdeal_ReferenceIdeal := by
  intro m ρ m' ρ' _ hagree
  refine ⟨fun c => fun i =>
      Cert.Attn.result (fun b ch s => Cert.ReferenceIdeal.Read.val_main_v0 (F := Ideal) (m ((c.tc : Thread Cert.KernelIdeal.nD Cert.KernelIdeal.τ).loc Cert.KernelIdeal.main_arg0)) (ix3 b ch s))
        (fun b t h => (m ((c.tc : Thread Cert.KernelIdeal.nD Cert.KernelIdeal.τ).loc Cert.KernelIdeal.main_arg1)) (ix3 b t h)) (fun h ch => (m ((c.tc : Thread Cert.KernelIdeal.nD Cert.KernelIdeal.τ).loc Cert.KernelIdeal.main_arg2)) (ix2 h ch)) (fun h => (m ((c.tc : Thread Cert.KernelIdeal.nD Cert.KernelIdeal.τ).loc Cert.KernelIdeal.main_arg3)) (ix1 h))
        (fun k h => (m ((c.tc : Thread Cert.KernelIdeal.nD Cert.KernelIdeal.τ).loc Cert.KernelIdeal.main_arg4)) (ix2 k h)) (fun k h => (m ((c.tc : Thread Cert.KernelIdeal.nD Cert.KernelIdeal.τ).loc Cert.KernelIdeal.main_arg5)) (ix2 k h)) (fun k => (m ((c.tc : Thread Cert.KernelIdeal.nD Cert.KernelIdeal.τ).loc Cert.KernelIdeal.main_arg6)) (ix1 k))
        (fun k h => (m ((c.tc : Thread Cert.KernelIdeal.nD Cert.KernelIdeal.τ).loc Cert.KernelIdeal.main_arg7)) (ix2 k h)) (fun k h => (m ((c.tc : Thread Cert.KernelIdeal.nD Cert.KernelIdeal.τ).loc Cert.KernelIdeal.main_arg8)) (ix2 k h)) (fun k => (m ((c.tc : Thread Cert.KernelIdeal.nD Cert.KernelIdeal.τ).loc Cert.KernelIdeal.main_arg9)) (ix1 k)) (i 0) (i 1), ?_, ?_⟩
  · exact (θ_run Cert.KernelIdeal.defs _ _).mono
      (fun r h c => ⟨(h c).1.trans (Cert.KernelIdeal.Whole.w4_eq m ρ c), (h c).2⟩)
      (Cert.KernelIdeal.RunValue.run (F := Ideal) m ρ)
  · refine (θ_run Cert.ReferenceIdeal.defs _ _).mono (fun r h c => ⟨?_, (h c).2⟩)
      (Cert.ReferenceIdeal.Value.run (F := Ideal) m' ρ')
    obtain ⟨a0, a1, a2, a3, a4, a5, a6, a7, a8, a9⟩ := hagree c
    rw [(h c).1, Cert.ReferenceIdeal.Read.val_main_v57_eq, Cert.ReferenceIdeal.RefValue.result_eq, a0, a1, a2, a3, a4, a5, a6, a7, a8, a9]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
